-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v213) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x8x64 : Shape := ⟨3, ![16384, 8, 64]⟩
abbrev S16384 : Shape := ⟨1, ![16384]⟩
abbrev S100x1024 : Shape := ⟨2, ![100, 1024]⟩
abbrev S3072x1088 : Shape := ⟨2, ![3072, 1088]⟩
abbrev S3072x1024 : Shape := ⟨2, ![3072, 1024]⟩
abbrev S3072 : Shape := ⟨1, ![3072]⟩
abbrev S_ : Shape := ⟨0, ![]⟩

class Facts : Prop where
  bcast_S_S16384x8x64 : S_.BroadcastsInDim S16384x8x64 (![] : Fin 0 → Fin S16384x8x64.rank)
  reducesTo_S16384x8x64_S_d0_1_2 : S16384x8x64.ReducesTo [0, 1, 2] S_
  h_S_ : 0 < S_.numel
  bcast_S_S100x1024 : S_.BroadcastsInDim S100x1024 (![] : Fin 0 → Fin S100x1024.rank)
  reducesTo_S100x1024_S_d0_1 : S100x1024.ReducesTo [0, 1] S_
  bcast_S_S3072x1088 : S_.BroadcastsInDim S3072x1088 (![] : Fin 0 → Fin S3072x1088.rank)
  reducesTo_S3072x1088_S_d0_1 : S3072x1088.ReducesTo [0, 1] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_

variable [Facts]

def fn_part1 {F : FTy → Type} [FloatOps F] (main_arg5 : FVec F S3072 .f32) (main_arg6 : FVec F S3072 .f32) (main_v13 : IVec S_ 1) (main_v16 : IVec S3072x1024 1) : IVec S_ 1 :=
  let main_c_5 : IVec S_ 1 := constantI S_ 1 1#1
  let main_v17 : IVec S_ 1 := (fun x v => Host.reduce IntOp.andi x v reducesTo_S3072x1024_S_d0_1 h_S_) main_v16 main_c_5
  let main_v18 : IVec S_ 1 := andi main_v13 main_v17
  let main_v19 : FVec F S3072 .f32 := Host.absf main_arg5
  let main_cst_6 : FVec F S_ .f32 := constant S_ .f32 0x7F800000#32
  let main_v20 : FVec F S3072 .f32 := broadcastInDim S3072 ![] bcast_S_S3072 main_cst_6
  let main_v21 : IVec S3072 1 := cmpf .olt main_v19 main_v20
  let main_c_7 : IVec S_ 1 := constantI S_ 1 1#1
  let main_v22 : IVec S_ 1 := (fun x v => Host.reduce IntOp.andi x v reducesTo_S3072_S_d0 h_S_) main_v21 main_c_7
  let main_v23 : IVec S_ 1 := andi main_v18 main_v22
  let main_v24 : FVec F S3072 .f32 := Host.absf main_arg6
  let main_cst_8 : FVec F S_ .f32 := constant S_ .f32 0x7F800000#32
  let main_v25 : FVec F S3072 .f32 := broadcastInDim S3072 ![] bcast_S_S3072 main_cst_8
  let main_v26 : IVec S3072 1 := cmpf .olt main_v24 main_v25
  let main_c_9 : IVec S_ 1 := constantI S_ 1 1#1
  let main_v27 : IVec S_ 1 := (fun x v => Host.reduce IntOp.andi x v reducesTo_S3072_S_d0 h_S_) main_v26 main_c_9
  let main_v28 : IVec S_ 1 := andi main_v23 main_v27
  main_v28

def fn {F : FTy → Type} [FloatOps F] (main_arg0 : FVec F S16384x8x64 .f32) (main_arg1 : IVec S16384 32) (main_arg2 : FVec F S100x1024 .f32) (main_arg3 : FVec F S3072x1088 .f32) (main_arg4 : FVec F S3072x1024 .f32) (main_arg5 : FVec F S3072 .f32) (main_arg6 : FVec F S3072 .f32) : IVec S_ 1 :=
  let main_v0 : FVec F S16384x8x64 .f32 := Host.absf main_arg0
  let main_cst : FVec F S_ .f32 := constant S_ .f32 0x7F800000#32
  let main_v1 : FVec F S16384x8x64 .f32 := broadcastInDim S16384x8x64 ![] bcast_S_S16384x8x64 main_cst
  let main_v2 : IVec S16384x8x64 1 := cmpf .olt main_v0 main_v1
  let main_c : IVec S_ 1 := constantI S_ 1 1#1
  let main_v3 : IVec S_ 1 := (fun x v => Host.reduce IntOp.andi x v reducesTo_S16384x8x64_S_d0_1_2 h_S_) main_v2 main_c
  let main_v4 : FVec F S100x1024 .f32 := Host.absf main_arg2
  let main_cst_0 : FVec F S_ .f32 := constant S_ .f32 0x7F800000#32
  let main_v5 : FVec F S100x1024 .f32 := broadcastInDim S100x1024 ![] bcast_S_S100x1024 main_cst_0
  let main_v6 : IVec S100x1024 1 := cmpf .olt main_v4 main_v5
  let main_c_1 : IVec S_ 1 := constantI S_ 1 1#1
  let main_v7 : IVec S_ 1 := (fun x v => Host.reduce IntOp.andi x v reducesTo_S100x1024_S_d0_1 h_S_) main_v6 main_c_1
  let main_v8 : IVec S_ 1 := andi main_v3 main_v7
  let main_v9 : FVec F S3072x1088 .f32 := Host.absf main_arg3
  let main_cst_2 : FVec F S_ .f32 := constant S_ .f32 0x7F800000#32
  let main_v10 : FVec F S3072x1088 .f32 := broadcastInDim S3072x1088 ![] bcast_S_S3072x1088 main_cst_2
  let main_v11 : IVec S3072x1088 1 := cmpf .olt main_v9 main_v10
  let main_c_3 : IVec S_ 1 := constantI S_ 1 1#1
  let main_v12 : IVec S_ 1 := (fun x v => Host.reduce IntOp.andi x v reducesTo_S3072x1088_S_d0_1 h_S_) main_v11 main_c_3
  let main_v13 : IVec S_ 1 := andi main_v8 main_v12
  let main_v14 : FVec F S3072x1024 .f32 := Host.absf main_arg4
  let main_cst_4 : FVec F S_ .f32 := constant S_ .f32 0x7F800000#32
  let main_v15 : FVec F S3072x1024 .f32 := broadcastInDim S3072x1024 ![] bcast_S_S3072x1024 main_cst_4
  let main_v16 : IVec S3072x1024 1 := cmpf .olt main_v14 main_v15
  fn_part1 (F := F) main_arg5 main_arg6 main_v13 main_v16
-- ==== Kernel.lean ====
abbrev S16384x8x64 : Shape := ⟨3, ![16384, 8, 64]⟩
abbrev S16384 : Shape := ⟨1, ![16384]⟩
abbrev S100x1024 : Shape := ⟨2, ![100, 1024]⟩
abbrev S3072x1088 : Shape := ⟨2, ![3072, 1088]⟩
abbrev S3072x1024 : Shape := ⟨2, ![3072, 1024]⟩
abbrev S3072 : Shape := ⟨1, ![3072]⟩
abbrev S_ : Shape := ⟨0, ![]⟩
abbrev S16384x1 : Shape := ⟨2, ![16384, 1]⟩
abbrev S16384x1024 : Shape := ⟨2, ![16384, 1024]⟩
abbrev S1088x3072 : Shape := ⟨2, ![1088, 3072]⟩
abbrev S64x3072 : Shape := ⟨2, ![64, 3072]⟩
abbrev S1024x3072 : Shape := ⟨2, ![1024, 3072]⟩
abbrev S1x3072 : Shape := ⟨2, ![1, 3072]⟩
abbrev S1x16384x1024 : Shape := ⟨3, ![1, 16384, 1024]⟩
abbrev S128x8x64 : Shape := ⟨3, ![128, 8, 64]⟩
abbrev S128x1024 : Shape := ⟨2, ![128, 1024]⟩
abbrev S1x128x1024 : Shape := ⟨3, ![1, 128, 1024]⟩
abbrev S128x1x64 : Shape := ⟨3, ![128, 1, 64]⟩
abbrev S128x64 : Shape := ⟨2, ![128, 64]⟩
abbrev S128x3072 : Shape := ⟨2, ![128, 3072]⟩

abbrev nBuf : Space → Nat
  | .hbm => 32
  | .vmem => 13
  | .smem => 0
  | _ => 0

abbrev bufTy : (tb : Table) → Fin (tcTables nBuf tb) → BufTy
  | .hbm, ⟨0, _⟩ => ⟨S16384x8x64, .f32⟩
  | .hbm, ⟨1, _⟩ => ⟨S16384, .i32⟩
  | .hbm, ⟨2, _⟩ => ⟨S100x1024, .f32⟩
  | .hbm, ⟨3, _⟩ => ⟨S3072x1088, .f32⟩
  | .hbm, ⟨4, _⟩ => ⟨S3072x1024, .f32⟩
  | .hbm, ⟨5, _⟩ => ⟨S3072, .f32⟩
  | .hbm, ⟨6, _⟩ => ⟨S3072, .f32⟩
  | .hbm, ⟨7, _⟩ => ⟨S16384x8x64, .bf16⟩
  | .hbm, ⟨8, _⟩ => ⟨S_, .i32⟩
  | .hbm, ⟨9, _⟩ => ⟨S16384, .i32⟩
  | .hbm, ⟨10, _⟩ => ⟨S16384, .i1⟩
  | .hbm, ⟨11, _⟩ => ⟨S_, .i32⟩
  | .hbm, ⟨12, _⟩ => ⟨S16384, .i32⟩
  | .hbm, ⟨13, _⟩ => ⟨S16384, .i32⟩
  | .hbm, ⟨14, _⟩ => ⟨S16384, .i32⟩
  | .hbm, ⟨15, _⟩ => ⟨S16384x1, .i32⟩
  | .hbm, ⟨16, _⟩ => ⟨S16384x1024, .f32⟩
  | .hbm, ⟨17, _⟩ => ⟨S16384x1024, .bf16⟩
  | .hbm, ⟨18, _⟩ => ⟨S1088x3072, .f32⟩
  | .hbm, ⟨19, _⟩ => ⟨S64x3072, .f32⟩
  | .hbm, ⟨20, _⟩ => ⟨S64x3072, .bf16⟩
  | .hbm, ⟨21, _⟩ => ⟨S1024x3072, .f32⟩
  | .hbm, ⟨22, _⟩ => ⟨S1024x3072, .bf16⟩
  | .hbm, ⟨23, _⟩ => ⟨S1024x3072, .f32⟩
  | .hbm, ⟨24, _⟩ => ⟨S1024x3072, .bf16⟩
  | .hbm, ⟨25, _⟩ => ⟨S64x3072, .f32⟩
  | .hbm, ⟨26, _⟩ => ⟨S64x3072, .bf16⟩
  | .hbm, ⟨27, _⟩ => ⟨S1024x3072, .f32⟩
  | .hbm, ⟨28, _⟩ => ⟨S1024x3072, .bf16⟩
  | .hbm, ⟨29, _⟩ => ⟨S1x3072, .f32⟩
  | .hbm, ⟨30, _⟩ => ⟨S1x3072, .f32⟩
  | .hbm, ⟨31, _⟩ => ⟨S1x16384x1024, .f32⟩
  | .local _ .vmem, ⟨0, _⟩ => ⟨S128x8x64, .bf16⟩
  | .local _ .vmem, ⟨1, _⟩ => ⟨S128x8x64, .bf16⟩
  | .local _ .vmem, ⟨2, _⟩ => ⟨S128x1024, .bf16⟩
  | .local _ .vmem, ⟨3, _⟩ => ⟨S128x1024, .bf16⟩
  | .local _ .vmem, ⟨4, _⟩ => ⟨S64x3072, .bf16⟩
  | .local _ .vmem, ⟨5, _⟩ => ⟨S1024x3072, .bf16⟩
  | .local _ .vmem, ⟨6, _⟩ => ⟨S1024x3072, .bf16⟩
  | .local _ .vmem, ⟨7, _⟩ => ⟨S64x3072, .bf16⟩
  | .local _ .vmem, ⟨8, _⟩ => ⟨S1024x3072, .bf16⟩
  | .local _ .vmem, ⟨9, _⟩ => ⟨S1x3072, .f32⟩
  | .local _ .vmem, ⟨10, _⟩ => ⟨S1x3072, .f32⟩
  | .local _ .vmem, ⟨11, _⟩ => ⟨S1x128x1024, .f32⟩
  | .local _ .vmem, ⟨12, _⟩ => ⟨S1x128x1024, .f32⟩
  | _, _ => ⟨S16384x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S128x8x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  bcast_S_S16384 : S_.BroadcastsInDim S16384 (![] : Fin 0 → Fin S16384.rank)
  bcast_S16384_S16384x1_0 : S16384.BroadcastsInDim S16384x1 (![0] : Fin 1 → Fin S16384x1.rank)
  transposes_S3072x1088_S1088x3072_1_0 : S3072x1088.Transposes [1, 0] S1088x3072
  slices_S1088x3072_S64x3072_0_0 : S1088x3072.Slices ![0, 0] S64x3072
  slices_S1088x3072_S1024x3072_64_0 : S1088x3072.Slices ![64, 0] S1024x3072
  slices_S1088x3072_S1024x3072_0_0 : S1088x3072.Slices ![0, 0] S1024x3072
  slices_S1088x3072_S64x3072_1024_0 : S1088x3072.Slices ![1024, 0] S64x3072
  transposes_S3072x1024_S1024x3072_1_0 : S3072x1024.Transposes [1, 0] S1024x3072
  shapeCasts_S3072_S1x3072 : S3072.ShapeCasts S1x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  inb_S64x3072_S64x3072_0_0 : ∀ a, (![0, 0] : Fin 2 → Nat) a + S64x3072.size a ≤ S64x3072.size a
  h_S64x3072 : 0 < S64x3072.numel
  shapeCasts_S64x3072_S64x3072 : S64x3072.ShapeCasts S64x3072
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S128x8x64_S128x8x64_0_0_0 : ∀ a, (![0, 0, 0] : Fin 3 → Nat) a + S128x8x64.size a ≤ S128x8x64.size a
  h_S128x8x64 : 0 < S128x8x64.numel
  shapeCasts_S128x8x64_S128x8x64 : S128x8x64.ShapeCasts S128x8x64
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  slices_S128x8x64_o0_0_0_S128x1x64 : S128x8x64.Slices ![0, 0, 0] S128x1x64
  shapeCasts_S128x1x64_S128x64 : S128x1x64.ShapeCasts S128x64
  slices_S128x8x64_o0_1_0_S128x1x64 : S128x8x64.Slices ![0, 1, 0] S128x1x64
  slices_S128x8x64_o0_2_0_S128x1x64 : S128x8x64.Slices ![0, 2, 0] S128x1x64
  broadcasts_S1x3072_S128x3072 : S1x3072.Broadcasts S128x3072
  slices_S128x3072_o0_0_S128x1024 : S128x3072.Slices ![0, 0] S128x1024
  slices_S128x3072_o0_1024_S128x1024 : S128x3072.Slices ![0, 1024] S128x1024
  slices_S128x3072_o0_2048_S128x1024 : S128x3072.Slices ![0, 2048] S128x1024
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  shapeCasts_S128x1024_S1x128x1024 : S128x1024.ShapeCasts S1x128x1024
  gather_S100x1024_S16384x1_S16384x1024_1_0_n_n_0_1_11024_wf : GatherDims.WF S100x1024 S16384x1 S16384x1024 [1] [0] [] [0] [] 1 ![1, 1024]
  dot_S128x64_S64x3072_S128x3072_1_0_0_1_n_n_wf : DotDims.WF S128x64 S64x3072 S128x3072 [1] [0] [0] [1] [] []
  dot_S128x1024_S1024x3072_S128x3072_1_0_0_1_n_n_wf : DotDims.WF S128x1024 S1024x3072 S128x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8x64.size a ≤ S16384x8x64.size a
  hwx0_0 : ∀ i : grid0.Coords, EltTy.bits .bf16 = 32 ∨ (Rect.block (s := S16384x8x64) S128x8x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S16384x1024.size a
  hwx0_1 : ∀ i : grid0.Coords, EltTy.bits .bf16 = 32 ∨ (Rect.block (s := S16384x1024) S128x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x3072.size a ≤ S64x3072.size a
  hwx0_2 : ∀ i : grid0.Coords, EltTy.bits .bf16 = 32 ∨ (Rect.block (s := S64x3072) S64x3072.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x3072.size a ≤ S1024x3072.size a
  hwx0_3 : ∀ i : grid0.Coords, EltTy.bits .bf16 = 32 ∨ (Rect.block (s := S1024x3072) S1024x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x3072.size a ≤ S1024x3072.size a
  hwx0_4 : ∀ i : grid0.Coords, EltTy.bits .bf16 = 32 ∨ (Rect.block (s := S1024x3072) S1024x3072.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x3072.size a ≤ S64x3072.size a
  hwx0_5 : ∀ i : grid0.Coords, EltTy.bits .bf16 = 32 ∨ (Rect.block (s := S64x3072) S64x3072.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x3072.size a ≤ S1024x3072.size a
  hwx0_6 : ∀ i : grid0.Coords, EltTy.bits .bf16 = 32 ∨ (Rect.block (s := S1024x3072) S1024x3072.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x3072.size a ≤ S1x3072.size a
  hwx0_7 : ∀ i : grid0.Coords, EltTy.bits .f32 = 32 ∨ (Rect.block (s := S1x3072) S1x3072.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x3072.size a ≤ S1x3072.size a
  hwx0_8 : ∀ i : grid0.Coords, EltTy.bits .f32 = 32 ∨ (Rect.block (s := S1x3072) S1x3072.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x128x1024.size a ≤ S1x16384x1024.size a
  hwx0_9 : ∀ i : grid0.Coords, EltTy.bits .f32 = 32 ∨ (Rect.block (s := S1x16384x1024) S1x128x1024.size (cc0_transform_9 i) (hinb0_9 i)).WholeWords (EltTy.packing .f32)

variable [Facts₀]

def gather_S100x1024_S16384x1_S16384x1024_1_0_n_n_0_1_11024 : GatherDims S100x1024 S16384x1 S16384x1024 where
  offsetDims := [1]
  collapsedSliceDims := [0]
  operandBatchingDims := []
  startIndicesBatchingDims := []
  startIndexMap := [0]
  indexVectorDim := 1
  sliceSizes := ![1, 1024]
  wf := gather_S100x1024_S16384x1_S16384x1024_1_0_n_n_0_1_11024_wf
def dot_S128x64_S64x3072_S128x3072_1_0_0_1_n_n : DotDims S128x64 S64x3072 S128x3072 where
  lhsContracting := [1]
  rhsContracting := [0]
  lhsNonContracting := [0]
  rhsNonContracting := [1]
  lhsBatch := []
  rhsBatch := []
  wf := dot_S128x64_S64x3072_S128x3072_1_0_0_1_n_n_wf
def dot_S128x1024_S1024x3072_S128x3072_1_0_0_1_n_n : DotDims S128x1024 S1024x3072 S128x3072 where
  lhsContracting := [1]
  rhsContracting := [0]
  lhsNonContracting := [0]
  rhsNonContracting := [1]
  lhsBatch := []
  rhsBatch := []
  wf := dot_S128x1024_S1024x3072_S128x3072_1_0_0_1_n_n_wf

abbrev win0_0 : Pipeline.Window sig grid0 :=
  Pipeline.Window.ofSpec (Memref.whole main_v0) S128x8x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S64x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1024x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1024x3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S64x3072.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1024x3072.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S1x3072.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v21) S1x3072.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22) S1x128x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x8x64 : Shape := ⟨3, ![16384, 8, 64]⟩
abbrev S16384 : Shape := ⟨1, ![16384]⟩
abbrev S100x1024 : Shape := ⟨2, ![100, 1024]⟩
abbrev S3072x1088 : Shape := ⟨2, ![3072, 1088]⟩
abbrev S3072x1024 : Shape := ⟨2, ![3072, 1024]⟩
abbrev S3072 : Shape := ⟨1, ![3072]⟩
abbrev S_ : Shape := ⟨0, ![]⟩
abbrev S16384x1 : Shape := ⟨2, ![16384, 1]⟩
abbrev S16384x1024 : Shape := ⟨2, ![16384, 1024]⟩
abbrev S16384x1x64 : Shape := ⟨3, ![16384, 1, 64]⟩
abbrev S16384x64 : Shape := ⟨2, ![16384, 64]⟩
abbrev S16384x1088 : Shape := ⟨2, ![16384, 1088]⟩
abbrev S1088x3072 : Shape := ⟨2, ![1088, 3072]⟩
abbrev S16384x3072 : Shape := ⟨2, ![16384, 3072]⟩
abbrev S1x3072 : Shape := ⟨2, ![1, 3072]⟩
abbrev S1024x3072 : Shape := ⟨2, ![1024, 3072]⟩
abbrev S1x16384x1024 : Shape := ⟨3, ![1, 16384, 1024]⟩

abbrev nBuf : Space → Nat
  | .hbm => 249
  | .vmem => 0
  | .smem => 0
  | _ => 0

abbrev hbmTy0_0 (i : Nat) : BufTy := match i % 128 with
  | 0 => ⟨S16384x8x64, .f32⟩
  | 1 => ⟨S16384, .i32⟩
  | 2 => ⟨S100x1024, .f32⟩
  | 3 => ⟨S3072x1088, .f32⟩
  | 4 => ⟨S3072x1024, .f32⟩
  | 5 => ⟨S3072, .f32⟩
  | 6 => ⟨S3072, .f32⟩
  | 7 => ⟨S_, .i32⟩
  | 8 => ⟨S16384, .i32⟩
  | 9 => ⟨S16384, .i1⟩
  | 10 => ⟨S_, .i32⟩
  | 11 => ⟨S16384, .i32⟩
  | 12 => ⟨S16384, .i32⟩
  | 13 => ⟨S16384, .i32⟩
  | 14 => ⟨S16384x1, .i32⟩
  | 15 => ⟨S16384x1024, .f32⟩
  | 16 => ⟨S_, .f32⟩
  | 17 => ⟨S16384x1024, .f32⟩
  | 18 => ⟨S16384x1x64, .f32⟩
  | 19 => ⟨S16384x64, .f32⟩
  | 20 => ⟨S16384x1088, .f32⟩
  | 21 => ⟨S1088x3072, .f32⟩
  | 22 => ⟨S16384x3072, .f32⟩
  | 23 => ⟨S1x3072, .f32⟩
  | 24 => ⟨S16384x3072, .f32⟩
  | 25 => ⟨S16384x3072, .f32⟩
  | 26 => ⟨S1024x3072, .f32⟩
  | 27 => ⟨S16384x3072, .f32⟩
  | 28 => ⟨S1x3072, .f32⟩
  | 29 => ⟨S16384x3072, .f32⟩
  | 30 => ⟨S16384x3072, .f32⟩
  | 31 => ⟨S16384x1024, .f32⟩
  | 32 => ⟨S16384x1024, .f32⟩
  | 33 => ⟨S16384x1024, .f32⟩
  | 34 => ⟨S16384x1024, .f32⟩
  | 35 => ⟨S16384x1024, .f32⟩
  | 36 => ⟨S16384x1024, .f32⟩
  | 37 => ⟨S16384x1024, .f32⟩
  | 38 => ⟨S16384x1024, .f32⟩
  | 39 => ⟨S16384x1024, .f32⟩
  | 40 => ⟨S_, .f32⟩
  | 41 => ⟨S16384x1024, .f32⟩
  | 42 => ⟨S16384x1024, .f32⟩
  | 43 => ⟨S_, .f32⟩
  | 44 => ⟨S16384x1024, .f32⟩
  | 45 => ⟨S16384x1024, .f32⟩
  | 46 => ⟨S16384x1024, .f32⟩
  | 47 => ⟨S16384x1024, .f32⟩
  | 48 => ⟨S16384x1024, .f32⟩
  | 49 => ⟨S_, .f32⟩
  | 50 => ⟨S16384x1024, .f32⟩
  | 51 => ⟨S16384x1024, .f32⟩
  | 52 => ⟨S_, .f32⟩
  | 53 => ⟨S16384x1024, .f32⟩
  | 54 => ⟨S16384x1024, .f32⟩
  | 55 => ⟨S16384x1024, .f32⟩
  | 56 => ⟨S16384x1024, .f32⟩
  | 57 => ⟨S16384x1024, .f32⟩
  | 58 => ⟨S_, .f32⟩
  | 59 => ⟨S16384x1024, .f32⟩
  | 60 => ⟨S16384x1024, .f32⟩
  | 61 => ⟨S16384x1024, .f32⟩
  | 62 => ⟨S16384x1024, .f32⟩
  | 63 => ⟨S16384x1024, .f32⟩
  | 64 => ⟨S16384x1x64, .f32⟩
  | 65 => ⟨S16384x64, .f32⟩
  | 66 => ⟨S16384x1088, .f32⟩
  | 67 => ⟨S1088x3072, .f32⟩
  | 68 => ⟨S16384x3072, .f32⟩
  | 69 => ⟨S1x3072, .f32⟩
  | 70 => ⟨S16384x3072, .f32⟩
  | 71 => ⟨S16384x3072, .f32⟩
  | 72 => ⟨S1024x3072, .f32⟩
  | 73 => ⟨S16384x3072, .f32⟩
  | 74 => ⟨S1x3072, .f32⟩
  | 75 => ⟨S16384x3072, .f32⟩
  | 76 => ⟨S16384x3072, .f32⟩
  | 77 => ⟨S16384x1024, .f32⟩
  | 78 => ⟨S16384x1024, .f32⟩
  | 79 => ⟨S16384x1024, .f32⟩
  | 80 => ⟨S16384x1024, .f32⟩
  | 81 => ⟨S16384x1024, .f32⟩
  | 82 => ⟨S16384x1024, .f32⟩
  | 83 => ⟨S16384x1024, .f32⟩
  | 84 => ⟨S16384x1024, .f32⟩
  | 85 => ⟨S16384x1024, .f32⟩
  | 86 => ⟨S_, .f32⟩
  | 87 => ⟨S16384x1024, .f32⟩
  | 88 => ⟨S16384x1024, .f32⟩
  | 89 => ⟨S_, .f32⟩
  | 90 => ⟨S16384x1024, .f32⟩
  | 91 => ⟨S16384x1024, .f32⟩
  | 92 => ⟨S16384x1024, .f32⟩
  | 93 => ⟨S16384x1024, .f32⟩
  | 94 => ⟨S16384x1024, .f32⟩
  | 95 => ⟨S_, .f32⟩
  | 96 => ⟨S16384x1024, .f32⟩
  | 97 => ⟨S16384x1024, .f32⟩
  | 98 => ⟨S_, .f32⟩
  | 99 => ⟨S16384x1024, .f32⟩
  | 100 => ⟨S16384x1024, .f32⟩
  | 101 => ⟨S16384x1024, .f32⟩
  | 102 => ⟨S16384x1024, .f32⟩
  | 103 => ⟨S16384x1024, .f32⟩
  | 104 => ⟨S_, .f32⟩
  | 105 => ⟨S16384x1024, .f32⟩
  | 106 => ⟨S16384x1024, .f32⟩
  | 107 => ⟨S16384x1024, .f32⟩
  | 108 => ⟨S16384x1024, .f32⟩
  | 109 => ⟨S16384x1024, .f32⟩
  | 110 => ⟨S16384x1x64, .f32⟩
  | 111 => ⟨S16384x64, .f32⟩
  | 112 => ⟨S16384x1088, .f32⟩
  | 113 => ⟨S1088x3072, .f32⟩
  | 114 => ⟨S16384x3072, .f32⟩
  | 115 => ⟨S1x3072, .f32⟩
  | 116 => ⟨S16384x3072, .f32⟩
  | 117 => ⟨S16384x3072, .f32⟩
  | 118 => ⟨S1024x3072, .f32⟩
  | 119 => ⟨S16384x3072, .f32⟩
  | 120 => ⟨S1x3072, .f32⟩
  | 121 => ⟨S16384x3072, .f32⟩
  | 122 => ⟨S16384x3072, .f32⟩
  | 123 => ⟨S16384x1024, .f32⟩
  | 124 => ⟨S16384x1024, .f32⟩
  | 125 => ⟨S16384x1024, .f32⟩
  | 126 => ⟨S16384x1024, .f32⟩
  | 127 => ⟨S16384x1024, .f32⟩
  | _ => ⟨S16384x8x64, .f32⟩

abbrev hbmTy0_1 (i : Nat) : BufTy := match i % 128 with
  | 0 => ⟨S16384x1024, .f32⟩
  | 1 => ⟨S16384x1024, .f32⟩
  | 2 => ⟨S16384x1024, .f32⟩
  | 3 => ⟨S16384x1024, .f32⟩
  | 4 => ⟨S_, .f32⟩
  | 5 => ⟨S16384x1024, .f32⟩
  | 6 => ⟨S16384x1024, .f32⟩
  | 7 => ⟨S_, .f32⟩
  | 8 => ⟨S16384x1024, .f32⟩
  | 9 => ⟨S16384x1024, .f32⟩
  | 10 => ⟨S16384x1024, .f32⟩
  | 11 => ⟨S16384x1024, .f32⟩
  | 12 => ⟨S16384x1024, .f32⟩
  | 13 => ⟨S_, .f32⟩
  | 14 => ⟨S16384x1024, .f32⟩
  | 15 => ⟨S16384x1024, .f32⟩
  | 16 => ⟨S_, .f32⟩
  | 17 => ⟨S16384x1024, .f32⟩
  | 18 => ⟨S16384x1024, .f32⟩
  | 19 => ⟨S16384x1024, .f32⟩
  | 20 => ⟨S16384x1024, .f32⟩
  | 21 => ⟨S16384x1024, .f32⟩
  | 22 => ⟨S_, .f32⟩
  | 23 => ⟨S16384x1024, .f32⟩
  | 24 => ⟨S16384x1024, .f32⟩
  | 25 => ⟨S16384x1024, .f32⟩
  | 26 => ⟨S16384x1024, .f32⟩
  | 27 => ⟨S16384x1024, .f32⟩
  | 28 => ⟨S16384x1x64, .f32⟩
  | 29 => ⟨S16384x64, .f32⟩
  | 30 => ⟨S16384x1088, .f32⟩
  | 31 => ⟨S1088x3072, .f32⟩
  | 32 => ⟨S16384x3072, .f32⟩
  | 33 => ⟨S1x3072, .f32⟩
  | 34 => ⟨S16384x3072, .f32⟩
  | 35 => ⟨S16384x3072, .f32⟩
  | 36 => ⟨S1024x3072, .f32⟩
  | 37 => ⟨S16384x3072, .f32⟩
  | 38 => ⟨S1x3072, .f32⟩
  | 39 => ⟨S16384x3072, .f32⟩
  | 40 => ⟨S16384x3072, .f32⟩
  | 41 => ⟨S16384x1024, .f32⟩
  | 42 => ⟨S16384x1024, .f32⟩
  | 43 => ⟨S16384x1024, .f32⟩
  | 44 => ⟨S16384x1024, .f32⟩
  | 45 => ⟨S16384x1024, .f32⟩
  | 46 => ⟨S16384x1024, .f32⟩
  | 47 => ⟨S16384x1024, .f32⟩
  | 48 => ⟨S16384x1024, .f32⟩
  | 49 => ⟨S16384x1024, .f32⟩
  | 50 => ⟨S_, .f32⟩
  | 51 => ⟨S16384x1024, .f32⟩
  | 52 => ⟨S16384x1024, .f32⟩
  | 53 => ⟨S_, .f32⟩
  | 54 => ⟨S16384x1024, .f32⟩
  | 55 => ⟨S16384x1024, .f32⟩
  | 56 => ⟨S16384x1024, .f32⟩
  | 57 => ⟨S16384x1024, .f32⟩
  | 58 => ⟨S16384x1024, .f32⟩
  | 59 => ⟨S_, .f32⟩
  | 60 => ⟨S16384x1024, .f32⟩
  | 61 => ⟨S16384x1024, .f32⟩
  | 62 => ⟨S_, .f32⟩
  | 63 => ⟨S16384x1024, .f32⟩
  | 64 => ⟨S16384x1024, .f32⟩
  | 65 => ⟨S16384x1024, .f32⟩
  | 66 => ⟨S16384x1024, .f32⟩
  | 67 => ⟨S16384x1024, .f32⟩
  | 68 => ⟨S_, .f32⟩
  | 69 => ⟨S16384x1024, .f32⟩
  | 70 => ⟨S16384x1024, .f32⟩
  | 71 => ⟨S16384x1024, .f32⟩
  | 72 => ⟨S16384x1024, .f32⟩
  | 73 => ⟨S16384x1024, .f32⟩
  | 74 => ⟨S16384x1x64, .f32⟩
  | 75 => ⟨S16384x64, .f32⟩
  | 76 => ⟨S16384x1088, .f32⟩
  | 77 => ⟨S1088x3072, .f32⟩
  | 78 => ⟨S16384x3072, .f32⟩
  | 79 => ⟨S1x3072, .f32⟩
  | 80 => ⟨S16384x3072, .f32⟩
  | 81 => ⟨S16384x3072, .f32⟩
  | 82 => ⟨S1024x3072, .f32⟩
  | 83 => ⟨S16384x3072, .f32⟩
  | 84 => ⟨S1x3072, .f32⟩
  | 85 => ⟨S16384x3072, .f32⟩
  | 86 => ⟨S16384x3072, .f32⟩
  | 87 => ⟨S16384x1024, .f32⟩
  | 88 => ⟨S16384x1024, .f32⟩
  | 89 => ⟨S16384x1024, .f32⟩
  | 90 => ⟨S16384x1024, .f32⟩
  | 91 => ⟨S16384x1024, .f32⟩
  | 92 => ⟨S16384x1024, .f32⟩
  | 93 => ⟨S16384x1024, .f32⟩
  | 94 => ⟨S16384x1024, .f32⟩
  | 95 => ⟨S16384x1024, .f32⟩
  | 96 => ⟨S_, .f32⟩
  | 97 => ⟨S16384x1024, .f32⟩
  | 98 => ⟨S16384x1024, .f32⟩
  | 99 => ⟨S_, .f32⟩
  | 100 => ⟨S16384x1024, .f32⟩
  | 101 => ⟨S16384x1024, .f32⟩
  | 102 => ⟨S16384x1024, .f32⟩
  | 103 => ⟨S16384x1024, .f32⟩
  | 104 => ⟨S16384x1024, .f32⟩
  | 105 => ⟨S_, .f32⟩
  | 106 => ⟨S16384x1024, .f32⟩
  | 107 => ⟨S16384x1024, .f32⟩
  | 108 => ⟨S_, .f32⟩
  | 109 => ⟨S16384x1024, .f32⟩
  | 110 => ⟨S16384x1024, .f32⟩
  | 111 => ⟨S16384x1024, .f32⟩
  | 112 => ⟨S16384x1024, .f32⟩
  | 113 => ⟨S16384x1024, .f32⟩
  | 114 => ⟨S_, .f32⟩
  | 115 => ⟨S16384x1024, .f32⟩
  | 116 => ⟨S16384x1024, .f32⟩
  | 117 => ⟨S16384x1024, .f32⟩
  | 118 => ⟨S16384x1024, .f32⟩
  | 119 => ⟨S16384x1024, .f32⟩
  | 120 => ⟨S1x16384x1024, .f32⟩
  | _ => ⟨S16384x8x64, .f32⟩

abbrev hbmTy (i : Nat) : BufTy := match i / 128 with
  | 0 => hbmTy0_0 i
  | 1 => hbmTy0_1 i
  | _ => ⟨S16384x8x64, .f32⟩

abbrev bufTy : (tb : Table) → Fin (tcTables nBuf tb) → BufTy
  | .hbm, ⟨i, _⟩ => hbmTy i
  | _, _ => ⟨S16384x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_5 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_6 : Ref sig .tc := ⟨.hbm, 86, rfl⟩
abbrev main_v71 : Ref sig .tc := ⟨.hbm, 87, rfl⟩
abbrev main_v72 : Ref sig .tc := ⟨.hbm, 88, rfl⟩
abbrev main_cst_7 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_cst_8 : Ref sig .tc := ⟨.hbm, 95, rfl⟩
abbrev main_v78 : Ref sig .tc := ⟨.hbm, 96, rfl⟩
abbrev main_v79 : Ref sig .tc := ⟨.hbm, 97, rfl⟩
abbrev main_cst_9 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_cst_10 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_cst_11 : Ref sig .tc := ⟨.hbm, 132, rfl⟩
abbrev main_v112 : Ref sig .tc := ⟨.hbm, 133, rfl⟩
abbrev main_v113 : Ref sig .tc := ⟨.hbm, 134, rfl⟩
abbrev main_cst_12 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_cst_13 : Ref sig .tc := ⟨.hbm, 141, rfl⟩
abbrev main_v119 : Ref sig .tc := ⟨.hbm, 142, rfl⟩
abbrev main_v120 : Ref sig .tc := ⟨.hbm, 143, rfl⟩
abbrev main_cst_14 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_cst_15 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_cst_16 : Ref sig .tc := ⟨.hbm, 178, rfl⟩
abbrev main_v153 : Ref sig .tc := ⟨.hbm, 179, rfl⟩
abbrev main_v154 : Ref sig .tc := ⟨.hbm, 180, rfl⟩
abbrev main_cst_17 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_cst_18 : Ref sig .tc := ⟨.hbm, 187, rfl⟩
abbrev main_v160 : Ref sig .tc := ⟨.hbm, 188, rfl⟩
abbrev main_v161 : Ref sig .tc := ⟨.hbm, 189, rfl⟩
abbrev main_cst_19 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_cst_20 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_cst_21 : Ref sig .tc := ⟨.hbm, 224, rfl⟩
abbrev main_v194 : Ref sig .tc := ⟨.hbm, 225, rfl⟩
abbrev main_v195 : Ref sig .tc := ⟨.hbm, 226, rfl⟩
abbrev main_cst_22 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_cst_23 : Ref sig .tc := ⟨.hbm, 233, rfl⟩
abbrev main_v201 : Ref sig .tc := ⟨.hbm, 234, rfl⟩
abbrev main_v202 : Ref sig .tc := ⟨.hbm, 235, rfl⟩
abbrev main_cst_24 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_v207 : Ref sig .tc := ⟨.hbm, 241, rfl⟩
abbrev main_cst_25 : Ref sig .tc := ⟨.hbm, 242, rfl⟩
abbrev main_v208 : Ref sig .tc := ⟨.hbm, 243, rfl⟩
abbrev main_v209 : Ref sig .tc := ⟨.hbm, 244, rfl⟩
abbrev main_v210 : Ref sig .tc := ⟨.hbm, 245, rfl⟩
abbrev main_v211 : Ref sig .tc := ⟨.hbm, 246, rfl⟩
abbrev main_v212 : Ref sig .tc := ⟨.hbm, 247, rfl⟩
abbrev main_v213 : Ref sig .tc := ⟨.hbm, 248, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1024 : S_.BroadcastsInDim S16384x1024 (![] : Fin 0 → Fin S16384x1024.rank)
  slices_S16384x8x64_S16384x1x64_0_0_0 : S16384x8x64.Slices ![0, 0, 0] S16384x1x64
  shapeCasts_S16384x1x64_S16384x64 : S16384x1x64.ShapeCasts S16384x64
  concatenates_S16384x64_S16384x1024_S16384x1088_d1 : Shape.Concatenates [S16384x64, S16384x1024] S16384x1088 1
  transposes_S3072x1088_S1088x3072_1_0 : S3072x1088.Transposes [1, 0] S1088x3072
  bcast_S3072_S1x3072_1 : S3072.BroadcastsInDim S1x3072 (![1] : Fin 1 → Fin S1x3072.rank)
  bcast_S1x3072_S16384x3072_0_1 : S1x3072.BroadcastsInDim S16384x3072 (![0, 1] : Fin 2 → Fin S16384x3072.rank)
  transposes_S3072x1024_S1024x3072_1_0 : S3072x1024.Transposes [1, 0] S1024x3072
  slices_S16384x3072_S16384x1024_0_0 : S16384x3072.Slices ![0, 0] S16384x1024
  slices_S16384x3072_S16384x1024_0_1024 : S16384x3072.Slices ![0, 1024] S16384x1024
  slices_S16384x3072_S16384x1024_0_2048 : S16384x3072.Slices ![0, 2048] S16384x1024
  slices_S16384x8x64_S16384x1x64_0_1_0 : S16384x8x64.Slices ![0, 1, 0] S16384x1x64
  slices_S16384x8x64_S16384x1x64_0_2_0 : S16384x8x64.Slices ![0, 2, 0] S16384x1x64
  concatenates_S16384x1024_S16384x64_S16384x1088_d1 : Shape.Concatenates [S16384x1024, S16384x64] S16384x1088 1
  bcast_S16384x1024_S1x16384x1024_1_2 : S16384x1024.BroadcastsInDim S1x16384x1024 (![1, 2] : Fin 2 → Fin S1x16384x1024.rank)
  gather_S100x1024_S16384x1_S16384x1024_1_0_n_n_0_1_11024_wf : GatherDims.WF S100x1024 S16384x1 S16384x1024 [1] [0] [] [0] [] 1 ![1, 1024]
  dot_S16384x1088_S1088x3072_S16384x3072_1_0_0_1_n_n_wf : DotDims.WF S16384x1088 S1088x3072 S16384x3072 [1] [0] [0] [1] [] []
  dot_S16384x1024_S1024x3072_S16384x3072_1_0_0_1_n_n_wf : DotDims.WF S16384x1024 S1024x3072 S16384x3072 [1] [0] [0] [1] [] []

variable [Facts₀]

def gather_S100x1024_S16384x1_S16384x1024_1_0_n_n_0_1_11024 : GatherDims S100x1024 S16384x1 S16384x1024 where
  offsetDims := [1]
  collapsedSliceDims := [0]
  operandBatchingDims := []
  startIndicesBatchingDims := []
  startIndexMap := [0]
  indexVectorDim := 1
  sliceSizes := ![1, 1024]
  wf := gather_S100x1024_S16384x1_S16384x1024_1_0_n_n_0_1_11024_wf
def dot_S16384x1088_S1088x3072_S16384x3072_1_0_0_1_n_n : DotDims S16384x1088 S1088x3072 S16384x3072 where
  lhsContracting := [1]
  rhsContracting := [0]
  lhsNonContracting := [0]
  rhsNonContracting := [1]
  lhsBatch := []
  rhsBatch := []
  wf := dot_S16384x1088_S1088x3072_S16384x3072_1_0_0_1_n_n_wf
def dot_S16384x1024_S1024x3072_S16384x3072_1_0_0_1_n_n : DotDims S16384x1024 S1024x3072 S16384x3072 where
  lhsContracting := [1]
  rhsContracting := [0]
  lhsNonContracting := [0]
  rhsNonContracting := [1]
  lhsBatch := []
  rhsBatch := []
  wf := dot_S16384x1024_S1024x3072_S16384x3072_1_0_0_1_n_n_wf

class Facts : Prop extends Facts₀ where

variable [Facts]
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibBiasDot.lean ====
/-
  A matrix product with a bias row added, read at one entry.

  The linear-layer body that many kernels share: an `M × K` by `K × N` product into the zero accumulator, plus a
  bias vector of length `N` viewed as a `1 × N` row and repeated down the `M` rows. At the ideal values its entry at
  row `p`, column `q` is the sum over `k` of the left operand at `(p, k)` times the right operand at `(k, q)`, plus
  the bias at `q`. `lin` names that whole-array function.
-/
import Idealize.ShloMosaic.Lib.ValueIdx
import Idealize.ShloMosaic.Lib.Pipeline.Value
import Idealize.ShloMosaic.PureOps.Ideal.Laws
import proofs.«157512_j81793357185352_1_alg».proof.Proof.LibPlainDot

noncomputable section

open scoped BigOperators

namespace Cert.Lib.BiasDot

open Idealize.ShloMosaic Idealize.ShloMosaic.ValueIdx

variable {M K N : Nat}

/-- The linear layer as one function of its three arrays: entry `(p, q)` is `∑ k, A (p, k) · W (k, q) + b q`. -/
def lin (A : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun i => (∑ k : Fin K, A (ix2 (i 0) k) * W (ix2 k (i 1))) + b (ix1 (i 1))

theorem lin_apply (A : (⟨2, ![M, K]⟩ : Shape).Idx → EReal) (W : (⟨2, ![K, N]⟩ : Shape).Idx → EReal)
    (b : (⟨1, ![N]⟩ : Shape).Idx → EReal) (p : Fin M) (q : Fin N) :
    lin A W b (ix2 p q) = (∑ k : Fin K, A (ix2 p k) * W (ix2 k q)) + b (ix1 q) := rfl

/-- A vector of length `N` viewed as a `1 × N` row and repeated down `M` rows reads, at `(p, q)`, the vector at `q`. -/
theorem rowBroadcast_apply {α : Type} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) := by
  refine (broadcastTo_apply _ hb (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine (shapeCast_addUnit_apply ![N] b hc (ix2 (0 : Fin 1) q)).trans (congrArg b ?_)
    funext a
    match a with
    | ⟨0, _⟩ => rfl

/-- The product into zero plus the repeated bias row, at entry `(p, q)`. -/
theorem biasDot_apply {φ₁ φ₂ : FTy} (prec : Option ContractPrecision)
    (l : FVec Ideal ⟨2, ![M, K]⟩ φ₁) (r : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (q : Fin N) :
    addf (FloatOps.matmul (DotDims.plain M K N) prec l r (constant ⟨2, ![M, N]⟩ .f32 0x00000000#32))
        (broadcastTo ⟨2, ![M, N]⟩ (shapeCast ⟨2, ![1, N]⟩ b hc) hb) (ix2 p q)
      = (∑ k : Fin K, l (ix2 p k) * r (ix2 k q)) + b (ix1 q) := by
  rw [addf_apply, Cert.Lib.PlainDot.matmul_zero_apply, rowBroadcast_apply]

end Cert.Lib.BiasDot

end
-- ==== Proof.LibDense.lean ====
/-
  The dense layers of the network as whole-array functions on the extended reals, and the host's spelling of each.

  A matrix with `M` rows and `N` columns is a function of its two coordinates. The layers are: a product plus a bias
  row (`lin`, from the bias-and-product module), the same with the contraction split over two pairs of operands
  (`lin2`), the plain product (`mm`), adding a row to every row of a matrix (`addRow`), and the positive part
  (`relu`). The host writes a layer as a `dot_general`, the bias broadcast in two steps to the matrix's shape,
  an addition, and a maximum with a broadcast zero; entry by entry these are the functions above.

  Two identities join the kernel's arrangement to the host's. A product whose left operand is two blocks set side by
  side, against a weight matrix, is the sum of the two blocks' products against the matching row ranges of the weight:
  the sum over the contraction index splits at the seam, which needs only that addition of extended reals is
  associative and commutative. And a product plus a row of zeros is the product.
-/
import Idealize.ShloMosaic.Lib.ValueIdx
import Idealize.ShloMosaic.Lib.Pipeline.Value
import Idealize.ShloMosaic.PureOps.Ideal.Laws
import proofs.«157512_j81793357185352_1_alg».proof.Proof.LibBiasDot

noncomputable section

open scoped BigOperators

namespace Cert.Lib.Dense

open Idealize.ShloMosaic Idealize.ShloMosaic.ValueIdx Cert.Lib.BiasDot

variable {M K K' N : Nat}

/-- The positive part, entry by entry. -/
def relu {s : Shape} (f : s.Idx → EReal) : s.Idx → EReal := fun i => max (f i) 0

/-- A row added to every row of a matrix. -/
def addRow (X : (⟨2, ![M, N]⟩ : Shape).Idx → EReal) (B : (⟨1, ![N]⟩ : Shape).Idx → EReal) :
    (⟨2, ![M, N]⟩ : Shape).Idx → EReal := fun i => X i + B (ix1 (i 1))

/-- The plain product: entry `(p, q)` is `∑ k, A (p, k) · W (k, q)`. -/
def mm (A : (⟨2, ![M, K]⟩ : Shape).Idx → EReal) (W : (⟨2, ![K, N]⟩ : Shape).Idx → EReal) :
    (⟨2, ![M, N]⟩ : Shape).Idx → EReal := fun i => ∑ k : Fin K, A (ix2 (i 0) k) * W (ix2 k (i 1))

/-- Two products added, plus a bias row: entry `(p, q)` is `∑ k, A (p, k) · Wa (k, q) + ∑ k, C (p, k) · Wb (k, q) + b q`. -/
def lin2 (A : (⟨2, ![M, K]⟩ : Shape).Idx → EReal) (Wa : (⟨2, ![K, N]⟩ : Shape).Idx → EReal)
    (C : (⟨2, ![M, K']⟩ : Shape).Idx → EReal) (Wb : (⟨2, ![K', N]⟩ : Shape).Idx → EReal)
    (B : (⟨1, ![N]⟩ : Shape).Idx → EReal) : (⟨2, ![M, N]⟩ : Shape).Idx → EReal :=
  fun i => ((∑ k : Fin K, A (ix2 (i 0) k) * Wa (ix2 k (i 1))) + (∑ k : Fin K', C (ix2 (i 0) k) * Wb (ix2 k (i 1))))
    + B (ix1 (i 1))

/-! ## The host's spelling, read at an entry -/

/-- A vector of length `N` broadcast to a `1 × N` row and then down `M` rows reads, at `(p, q)`, the vector at `q`. -/
theorem hostRow_apply {α : Type} (B : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 B) (ix2 p q) = B (ix1 q) := by
  refine (broadcastInDim_apply ![0, 1] h2 _ (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine broadcastInDim_apply ![1] h1 B (ix2 (0 : Fin 1) q) (ix1 q) (fun a => ?_)
    match a with
    | ⟨0, _⟩ =>
      show q.val = if N = 1 then 0 else q.val
      split
      · have := q.isLt; omega
      · rfl

/-- The zero scalar broadcast to any shape is zero everywhere. -/
theorem hostZero_apply {t : Shape} (dims : Fin 0 → Fin t.rank) (h : (⟨0, ![]⟩ : Shape).BroadcastsInDim t dims) (j : t.Idx) :
    broadcastInDim t dims h (constant (F := Ideal) ⟨0, ![]⟩ .f32 0x00000000#32) j = 0 := by
  refine (broadcastInDim_apply (s := ⟨0, ![]⟩) dims h _ j (fun a => a.elim0) (fun a => a.elim0)).trans ?_
  rw [constant_apply, Ideal.ofBits_zero_f32]

/-- The host's linear layer with the positive part: product, bias broadcast in two steps, sum, maximum with zero. -/
theorem host_lin_relu (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none X W)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin X W B) := by
  subst hd
  funext i
  obtain ⟨p, q, rfl⟩ : ∃ (p : Fin M) (q : Fin N), i = ix2 p q := ⟨i 0, i 1, eq_ix2 i⟩
  rw [maximumf_apply, addf_apply, hostZero_apply, hostRow_apply]
  exact congrArg (fun z => max (z + B (ix1 q)) 0) (Cert.Lib.PlainDot.dotGeneral_apply none _ X W p q)

/-- The host's bias-and-positive-part layer. -/
theorem host_addRow_relu (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf X (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (addRow X B) := by
  funext i
  obtain ⟨p, q, rfl⟩ : ∃ (p : Fin M) (q : Fin N), i = ix2 p q := ⟨i 0, i 1, eq_ix2 i⟩
  rw [maximumf_apply, addf_apply, hostZero_apply, hostRow_apply]
  rfl

/-- The host's bias layer. -/
theorem host_addRow (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 B)) = addRow X B := by
  funext i
  obtain ⟨p, q, rfl⟩ : ∃ (p : Fin M) (q : Fin N), i = ix2 p q := ⟨i 0, i 1, eq_ix2 i⟩
  rw [addf_apply, hostRow_apply]
  rfl

/-- The host's plain product. -/
theorem host_mm (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) :
    Host.dotGeneral d none X W = mm X W := by
  subst hd
  funext i
  obtain ⟨p, q, rfl⟩ : ∃ (p : Fin M) (q : Fin N), i = ix2 p q := ⟨i 0, i 1, eq_ix2 i⟩
  exact Cert.Lib.PlainDot.dotGeneral_apply none _ X W p q

/-! ## A left operand of two blocks side by side -/

section Concat

variable (A : (⟨2, ![M, K]⟩ : Shape).Idx → EReal) (C : (⟨2, ![M, K']⟩ : Shape).Idx → EReal)
  (Wc : (⟨2, ![K + K', N]⟩ : Shape).Idx → EReal)
  (hcat : Shape.Concatenates [(⟨2, ![M, K]⟩ : Shape), ⟨2, ![M, K']⟩] ⟨2, ![M, K + K']⟩ 1)
  (hs1 : (⟨2, ![K + K', N]⟩ : Shape).Slices ![0, 0] ⟨2, ![K, N]⟩)
  (hs2 : (⟨2, ![K + K', N]⟩ : Shape).Slices ![K, 0] ⟨2, ![K', N]⟩)

/-- Left of the seam the two blocks set side by side read the first block. -/
theorem concat_left (p : Fin M) (k : Fin K) :
    concatenate ⟨2, ![M, K + K']⟩ 1 [⟨⟨2, ![M, K]⟩, A⟩, ⟨⟨2, ![M, K']⟩, C⟩] hcat (ix2 p (Fin.castAdd K' k)) = A (ix2 p k) :=
  concatenate_pair_apply_left 1 A C hcat _ rfl (ix2 p k) (fun b => by
    match b with
    | ⟨0, _⟩ => rfl
    | ⟨1, _⟩ => rfl)

/-- Right of the seam they read the second block, the column counted from the seam. -/
theorem concat_right (p : Fin M) (k : Fin K') :
    concatenate ⟨2, ![M, K + K']⟩ 1 [⟨⟨2, ![M, K]⟩, A⟩, ⟨⟨2, ![M, K']⟩, C⟩] hcat (ix2 p (Fin.natAdd K k)) = C (ix2 p k) :=
  concatenate_pair_apply_right 1 A C hcat _ rfl rfl (ix2 p k) (fun b hb => by
    match b, hb with
    | ⟨0, _⟩, _ => rfl
    | ⟨1, _⟩, h => exact absurd rfl h) (by show k.val + K = K + k.val; omega)

/-- The first `K` rows of the weight. -/
theorem slice_top (k : Fin K) (q : Fin N) :
    extractStridedSlice ⟨2, ![K, N]⟩ ![0, 0] Wc hs1 (ix2 k q) = Wc (ix2 (Fin.castAdd K' k) q) :=
  extractStridedSlice_apply ![0, 0] Wc hs1 (ix2 k q) (ix2 (Fin.castAdd K' k) q) (fun a => by
    match a with
    | ⟨0, _⟩ => show k.val = 0 + k.val; omega
    | ⟨1, _⟩ => show q.val = 0 + q.val; omega)

/-- The last `K'` rows of the weight. -/
theorem slice_bot (k : Fin K') (q : Fin N) :
    extractStridedSlice ⟨2, ![K', N]⟩ ![K, 0] Wc hs2 (ix2 k q) = Wc (ix2 (Fin.natAdd K k) q) :=
  extractStridedSlice_apply ![K, 0] Wc hs2 (ix2 k q) (ix2 (Fin.natAdd K k) q) (fun a => by
    match a with
    | ⟨0, _⟩ => show K + k.val = K + k.val; rfl
    | ⟨1, _⟩ => show q.val = 0 + q.val; omega)

/-- The sum over the contraction index of the side-by-side operand against the weight splits at the seam into the two
    blocks' sums against the two row ranges of the weight. -/
theorem sum_concat (p : Fin M) (q : Fin N) :
    (∑ k : Fin (K + K'), concatenate ⟨2, ![M, K + K']⟩ 1 [⟨⟨2, ![M, K]⟩, A⟩, ⟨⟨2, ![M, K']⟩, C⟩] hcat (ix2 p k) * Wc (ix2 k q))
      = (∑ k : Fin K, A (ix2 p k) * extractStridedSlice ⟨2, ![K, N]⟩ ![0, 0] Wc hs1 (ix2 k q))
        + (∑ k : Fin K', C (ix2 p k) * extractStridedSlice ⟨2, ![K', N]⟩ ![K, 0] Wc hs2 (ix2 k q)) := by
  rw [Fin.sum_univ_add]
  refine congrArg₂ (· + ·) (Finset.sum_congr rfl fun k _ => ?_) (Finset.sum_congr rfl fun k _ => ?_)
  · rw [concat_left, slice_top]
  · rw [concat_right, slice_bot]

end Concat

/-- The host's second layer: the side-by-side operand against the whole weight, bias, positive part — is the two-product
    layer of the two blocks against the two row ranges of the weight. -/
theorem host_concat_lin2_relu {Kt : Nat} (hK : Kt = K + K')
    (d : DotDims ⟨2, ![M, Kt]⟩ ⟨2, ![Kt, N]⟩ ⟨2, ![M, N]⟩) (hd : d = hK ▸ DotDims.plain M (K + K') N)
    (A : FVec Ideal ⟨2, ![M, K]⟩ .f32) (C : FVec Ideal ⟨2, ![M, K']⟩ .f32) (Wc : FVec Ideal ⟨2, ![Kt, N]⟩ .f32)
    (B : FVec Ideal ⟨1, ![N]⟩ .f32)
    (hcat : Shape.Concatenates [(⟨2, ![M, K]⟩ : Shape), ⟨2, ![M, K']⟩] ⟨2, ![M, Kt]⟩ 1)
    (hs1 : (⟨2, ![Kt, N]⟩ : Shape).Slices ![0, 0] ⟨2, ![K, N]⟩)
    (hs2 : (⟨2, ![Kt, N]⟩ : Shape).Slices ![K, 0] ⟨2, ![K', N]⟩)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none
          (concatenate ⟨2, ![M, Kt]⟩ 1 [⟨⟨2, ![M, K]⟩, A⟩, ⟨⟨2, ![M, K']⟩, C⟩] hcat) Wc)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin2 A (extractStridedSlice ⟨2, ![K, N]⟩ ![0, 0] Wc hs1) C (extractStridedSlice ⟨2, ![K', N]⟩ ![K, 0] Wc hs2) B) := by
  subst hK
  subst hd
  funext i
  obtain ⟨p, q, rfl⟩ : ∃ (p : Fin M) (q : Fin N), i = ix2 p q := ⟨i 0, i 1, eq_ix2 i⟩
  rw [maximumf_apply, addf_apply, hostZero_apply, hostRow_apply]
  refine congrArg (fun z => max (z + B (ix1 q)) 0) ?_
  exact (Cert.Lib.PlainDot.dotGeneral_apply none _ _ Wc p q).trans (sum_concat A C Wc hcat hs1 hs2 p q)

/-! ## A zero bias row -/

/-- A product plus a row of zeros is the product. -/
theorem lin_zero (X : (⟨2, ![M, K]⟩ : Shape).Idx → EReal) (W : (⟨2, ![K, N]⟩ : Shape).Idx → EReal)
    (Z : (⟨1, ![N]⟩ : Shape).Idx → EReal) (hZ : ∀ j, Z j = 0) : lin X W Z = mm X W := by
  funext i
  show (∑ k : Fin K, X (ix2 (i 0) k) * W (ix2 k (i 1))) + Z (ix1 (i 1)) = _
  rw [hZ, add_zero]
  rfl

end Cert.Lib.Dense

end
-- ==== Proof.LibCatDot.lean ====
/-
  The host's linear layers without a positive part, as whole-array functions on the extended reals.

  A product plus a bias row broadcast in two steps is the linear layer `lin`; two products added, plus such a row,
  the two-product layer `lin2`. A product whose left operand is two blocks set side by side, plus such a bias row, is
  the two-product layer of the blocks against the top and the bottom row ranges of the weight (`rowsTop`,
  `rowsBot`): the sum over the contraction index splits at the seam, which uses only that addition of extended reals
  is associative and commutative, so it holds at infinite entries too. The two row ranges are also what the two
  unit-stride slices of the weight at row offsets `0` and `K` read.
-/
import Idealize.ShloMosaic.Lib.ValueIdx
import Idealize.ShloMosaic.Lib.Pipeline.Value
import Idealize.ShloMosaic.PureOps.Ideal.Laws
import proofs.«157512_j81793357185352_1_alg».proof.Proof.LibDense

noncomputable section

open scoped BigOperators

namespace Cert.Lib.CatDot

open Idealize.ShloMosaic Idealize.ShloMosaic.ValueIdx Cert.Lib.BiasDot Cert.Lib.Dense

variable {M K K' N : Nat}

/-- The first `K` rows of a matrix of `K + K'` rows. -/
def rowsTop (Wc : (⟨2, ![K + K', N]⟩ : Shape).Idx → EReal) : (⟨2, ![K, N]⟩ : Shape).Idx → EReal :=
  fun i => Wc (ix2 (Fin.castAdd K' (i 0)) (i 1))

/-- Its last `K'` rows. -/
def rowsBot (Wc : (⟨2, ![K + K', N]⟩ : Shape).Idx → EReal) : (⟨2, ![K', N]⟩ : Shape).Idx → EReal :=
  fun i => Wc (ix2 (Fin.natAdd K (i 0)) (i 1))

/-- The slice at row offset `0` is the first `K` rows. -/
theorem slice_rowsTop (Wc : (⟨2, ![K + K', N]⟩ : Shape).Idx → EReal)
    (hs1 : (⟨2, ![K + K', N]⟩ : Shape).Slices ![0, 0] ⟨2, ![K, N]⟩) :
    extractStridedSlice ⟨2, ![K, N]⟩ ![0, 0] Wc hs1 = rowsTop Wc := by
  funext i
  obtain ⟨k, q, rfl⟩ : ∃ (k : Fin K) (q : Fin N), i = ix2 k q := ⟨i 0, i 1, eq_ix2 i⟩
  exact slice_top Wc hs1 k q

/-- The slice at row offset `K` is the last `K'` rows. -/
theorem slice_rowsBot (Wc : (⟨2, ![K + K', N]⟩ : Shape).Idx → EReal)
    (hs2 : (⟨2, ![K + K', N]⟩ : Shape).Slices ![K, 0] ⟨2, ![K', N]⟩) :
    extractStridedSlice ⟨2, ![K', N]⟩ ![K, 0] Wc hs2 = rowsBot Wc := by
  funext i
  obtain ⟨k, q, rfl⟩ : ∃ (k : Fin K') (q : Fin N), i = ix2 k q := ⟨i 0, i 1, eq_ix2 i⟩
  exact slice_bot Wc hs2 k q

/-- The sum over the contraction index of the side-by-side operand against the weight splits at the seam into the two
    blocks' sums against the first and the last rows of the weight. -/
theorem sum_concat_rows (A : (⟨2, ![M, K]⟩ : Shape).Idx → EReal) (C : (⟨2, ![M, K']⟩ : Shape).Idx → EReal)
    (Wc : (⟨2, ![K + K', N]⟩ : Shape).Idx → EReal)
    (hcat : Shape.Concatenates [(⟨2, ![M, K]⟩ : Shape), ⟨2, ![M, K']⟩] ⟨2, ![M, K + K']⟩ 1) (p : Fin M) (q : Fin N) :
    (∑ k : Fin (K + K'), concatenate ⟨2, ![M, K + K']⟩ 1 [⟨⟨2, ![M, K]⟩, A⟩, ⟨⟨2, ![M, K']⟩, C⟩] hcat (ix2 p k) * Wc (ix2 k q))
      = (∑ k : Fin K, A (ix2 p k) * rowsTop Wc (ix2 k q)) + (∑ k : Fin K', C (ix2 p k) * rowsBot Wc (ix2 k q)) := by
  rw [Fin.sum_univ_add]
  refine congrArg₂ (· + ·) (Finset.sum_congr rfl fun k _ => ?_) (Finset.sum_congr rfl fun k _ => ?_)
  · rw [concat_left]; rfl
  · rw [concat_right]; rfl

/-- The host's linear layer: product, bias broadcast in two steps, sum. -/
theorem host_lin (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d none X W)
        (broadcastInDim ⟨2, ![M, N]⟩ ![0, 1] h2 (broadcastInDim ⟨2, ![1, N]⟩ ![1] h1 B))
      = lin X W B := by
  subst hd
  funext i
  obtain ⟨p, q, rfl⟩ : ∃ (p : Fin M) (q : Fin N), i = ix2 p q := ⟨i 0, i 1, eq_ix2 i⟩
  rw [addf_apply, hostRow_apply]
  exact congrArg (fun z => z + B (ix1 q)) (Cert.Lib.PlainDot.dotGeneral_apply none _ X W p q)

/-- Two host products added, then a bias row broadcast in two steps added: the two-product layer. -/
theorem host_lin2 (d : DotDims ⟨2, ![M, K]⟩ ⟨2, ![K, N]⟩ ⟨2, ![M, N]⟩) (hd : d = DotDims.plain M K N)
    (d' : DotDims ⟨2, ![M, K']⟩ ⟨2, ![K', N]⟩ ⟨2, ![M, N]⟩) (hd' : d' = DotDims.plain M K' N)
    (A : FVec Ideal ⟨2, ![M, K]⟩ .f32) (Wa : FVec Ideal ⟨2, ![K, N]⟩ .f32)
    (C : FVec Ideal ⟨2, ![M, K']⟩ .f32) (Wb : FVec Ideal ⟨2, ![K', N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (addf (Host.dotGeneral d none A Wa) (Host.dotGeneral d' none C Wb))
        (broadcastInDim ⟨2, ![M, N]⟩ ![0, 1] h2 (broadcastInDim ⟨2, ![1, N]⟩ ![1] h1 B))
      = lin2 A Wa C Wb B := by
  subst hd
  subst hd'
  funext i
  obtain ⟨p, q, rfl⟩ : ∃ (p : Fin M) (q : Fin N), i = ix2 p q := ⟨i 0, i 1, eq_ix2 i⟩
  rw [addf_apply, addf_apply, hostRow_apply]
  exact congrArg₂ (fun y z => y + z + B (ix1 q)) (Cert.Lib.PlainDot.dotGeneral_apply none _ A Wa p q)
    (Cert.Lib.PlainDot.dotGeneral_apply none _ C Wb p q)

/-- The host's layer over a side-by-side operand: the concatenation against the whole weight, plus the bias row, is the
    two-product layer of the two blocks against the first and the last rows of the weight. -/
theorem host_concat_lin2 (d : DotDims ⟨2, ![M, K + K']⟩ ⟨2, ![K + K', N]⟩ ⟨2, ![M, N]⟩) (hd : d = DotDims.plain M (K + K') N)
    (A : FVec Ideal ⟨2, ![M, K]⟩ .f32) (C : FVec Ideal ⟨2, ![M, K']⟩ .f32) (Wc : FVec Ideal ⟨2, ![K + K', N]⟩ .f32)
    (B : FVec Ideal ⟨1, ![N]⟩ .f32)
    (hcat : Shape.Concatenates [(⟨2, ![M, K]⟩ : Shape), ⟨2, ![M, K']⟩] ⟨2, ![M, K + K']⟩ 1)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d none
          (concatenate ⟨2, ![M, K + K']⟩ 1 [⟨⟨2, ![M, K]⟩, A⟩, ⟨⟨2, ![M, K']⟩, C⟩] hcat) Wc)
        (broadcastInDim ⟨2, ![M, N]⟩ ![0, 1] h2 (broadcastInDim ⟨2, ![1, N]⟩ ![1] h1 B))
    = lin2 A (rowsTop Wc) C (rowsBot Wc) B := by
  subst hd
  funext i
  obtain ⟨p, q, rfl⟩ : ∃ (p : Fin M) (q : Fin N), i = ix2 p q := ⟨i 0, i 1, eq_ix2 i⟩
  rw [addf_apply, hostRow_apply]
  refine congrArg (fun z => z + B (ix1 q)) ?_
  exact (Cert.Lib.PlainDot.dotGeneral_apply none _ _ Wc p q).trans (sum_concat_rows A C Wc hcat p q)

end Cert.Lib.CatDot

end
-- ==== Proof.LibRowLayers.lean ====
/-
  The two dense layers a vector unit computes on a block of rows, as whole-array functions on the extended reals.

  A block of `M` rows with `K` features, a `K × N` weight and a `1 × N` bias row give `relu (x · W + b)`: entry
  `(p, q)` is the larger of `0` and `∑ k, x (p, k) · W (k, q) + b (0, q)`. The narrowing of the operands to a shorter float
  format before the product is the identity on extended reals, the product accumulates into zero, and the bias row is
  repeated down the rows. A second product and bias on top of that, without the positive part, gives the output layer.

  An entry of either layer depends on one row of the block only, so a block of rows of a taller array computes the
  same entries as the layer of the whole array at those rows.
-/
import Idealize.ShloMosaic.Lib.ValueIdx
import Idealize.ShloMosaic.Lib.Pipeline.Value
import Idealize.ShloMosaic.PureOps.Ideal.Laws
import proofs.«157512_j81793357185352_1_alg».proof.Proof.LibDense

noncomputable section

open scoped BigOperators

namespace Cert.Lib.RowLayers

open Idealize.ShloMosaic Idealize.ShloMosaic.ValueIdx Cert.Lib.BiasDot Cert.Lib.Dense

variable {m M K N N' : Nat}

/-- A `1 × N` row read as a vector of length `N`. -/
def rowVec (R : (⟨2, ![1, N]⟩ : Shape).Idx → EReal) : (⟨1, ![N]⟩ : Shape).Idx → EReal :=
  fun j => R (ix2 (0 : Fin 1) (j 0))

/-- A vector of length `N` reshaped to a `1 × N` row and read back as a vector is the vector. -/
theorem rowVec_reshape (b : (⟨1, ![N]⟩ : Shape).Idx → EReal) (hc : (⟨1, ![N]⟩ : Shape).ShapeCasts ⟨2, ![1, N]⟩) :
    rowVec (shapeCast ⟨2, ![1, N]⟩ b hc) = b := by
  funext j
  refine (shapeCast_addUnit_apply ![N] b hc (ix2 (0 : Fin 1) (j 0))).trans (congrArg b ?_)
  funext a
  match a with
  | ⟨0, _⟩ => rfl

/-- A `1 × N` row repeated down `M` rows reads, at `(p, q)`, the row at `q`. -/
theorem rowRepeat_apply {α : Type} (R : (⟨2, ![1, N]⟩ : Shape).Idx → α)
    (hc : (⟨2, ![1, N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ R hc) hb (ix2 p q) = R (ix2 (0 : Fin 1) q) := by
  rw [shapeCast_self]
  refine broadcastTo_apply _ hb (ix2 p q) (ix2 (0 : Fin 1) q) (fun a => ?_)
  match a with
  | ⟨0, _⟩ => exact (if_pos rfl).symm
  | ⟨1, _⟩ =>
    show q.val = if N = 1 then 0 else q.val
    split
    · have := q.isLt; omega
    · rfl

/-- The product into zero plus the repeated bias row is the linear layer of the block, the weight and the row. -/
theorem linLayer_eq (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32) (x2 : FVec Ideal ⟨2, ![1, N]⟩ .f32)
    (hb0 hb1 : FTy.bf16.bits < FTy.f32.bits)
    (h2 : (⟨2, ![1, N]⟩ : Shape).ShapeCasts ⟨2, ![1, N]⟩) (hbr : (⟨2, ![1, N]⟩ : Shape).Broadcasts ⟨2, ![M, N]⟩) :
    addf (FloatOps.matmul d none (truncf .bf16 x0 hb0) (truncf .bf16 x1 hb1) (constant ⟨2, ![M, N]⟩ .f32 0x00000000#32))
        (broadcastTo ⟨2, ![M, N]⟩ (shapeCast ⟨2, ![1, N]⟩ x2 h2) hbr)
      = lin x0 x1 (rowVec x2) := by
  subst hd
  funext i
  obtain ⟨p, q, rfl⟩ : ∃ (p : Fin M) (q : Fin N), i = ix2 p q := ⟨i 0, i 1, eq_ix2 i⟩
  rw [addf_apply, rowRepeat_apply, Cert.Lib.PlainDot.matmul_zero_apply]
  rfl

/-- The same followed by the maximum with a splat zero is the positive part of the linear layer. -/
theorem reluLayer_eq (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32) (x2 : FVec Ideal ⟨2, ![1, N]⟩ .f32)
    (hb0 hb1 : FTy.bf16.bits < FTy.f32.bits)
    (h2 : (⟨2, ![1, N]⟩ : Shape).ShapeCasts ⟨2, ![1, N]⟩) (hbr : (⟨2, ![1, N]⟩ : Shape).Broadcasts ⟨2, ![M, N]⟩) :
    maximumf (addf (FloatOps.matmul d none (truncf .bf16 x0 hb0) (truncf .bf16 x1 hb1) (constant ⟨2, ![M, N]⟩ .f32 0x00000000#32))
        (broadcastTo ⟨2, ![M, N]⟩ (shapeCast ⟨2, ![1, N]⟩ x2 h2) hbr))
      (broadcast ⟨2, ![M, N]⟩ (Scalar.ofBits (F := Ideal) .f32 0x00000000#32))
      = relu (lin x0 x1 (rowVec x2)) := by
  rw [linLayer_eq d hd x0 x1 x2 hb0 hb1 h2 hbr]
  funext i
  rw [maximumf_apply, broadcast_apply]
  show max _ (Ideal.ofBits .f32 0x00000000#32) = _
  rw [Ideal.ofBits_zero_f32]
  rfl

/-- The first layer on a block of rows is the first layer of the whole array at those rows: entry `j` of the block's
    layer is entry `i` of the array's when the block's row `j 0` is the array's row `i 0` and the columns agree. -/
theorem layer_block (x0 : (⟨2, ![m, K]⟩ : Shape).Idx → EReal) (x1 : (⟨2, ![K, N]⟩ : Shape).Idx → EReal)
    (x2 : (⟨2, ![1, N]⟩ : Shape).Idx → EReal)
    (A : (⟨2, ![M, K]⟩ : Shape).Idx → EReal) (W : (⟨2, ![K, N]⟩ : Shape).Idx → EReal) (R : (⟨2, ![1, N]⟩ : Shape).Idx → EReal)
    (j : (⟨2, ![m, N]⟩ : Shape).Idx) (i : (⟨2, ![M, N]⟩ : Shape).Idx)
    (h0 : ∀ k : Fin K, x0 (ix2 (j 0) k) = A (ix2 (i 0) k)) (h1 : ∀ k : Fin K, x1 (ix2 k (j 1)) = W (ix2 k (i 1)))
    (h2 : x2 (ix2 (0 : Fin 1) (j 1)) = R (ix2 (0 : Fin 1) (i 1))) :
    relu (lin x0 x1 (rowVec x2)) j = relu (lin A W (rowVec R)) i := by
  show max ((∑ k : Fin K, x0 (ix2 (j 0) k) * x1 (ix2 k (j 1))) + x2 (ix2 (0 : Fin 1) (j 1))) 0
    = max ((∑ k : Fin K, A (ix2 (i 0) k) * W (ix2 k (i 1))) + R (ix2 (0 : Fin 1) (i 1))) 0
  rw [h2]
  exact congrArg (fun z => max (z + R (ix2 (0 : Fin 1) (i 1))) 0) (Finset.sum_congr rfl fun k _ => by rw [h0 k, h1 k])

/-- The two layers on a block of rows are the two layers of the whole array at those rows. -/
theorem head_block (x0 : (⟨2, ![m, K]⟩ : Shape).Idx → EReal) (x1 : (⟨2, ![K, N]⟩ : Shape).Idx → EReal)
    (x2 : (⟨2, ![1, N]⟩ : Shape).Idx → EReal) (x3 : (⟨2, ![N, N']⟩ : Shape).Idx → EReal) (x4 : (⟨2, ![1, N']⟩ : Shape).Idx → EReal)
    (A : (⟨2, ![M, K]⟩ : Shape).Idx → EReal) (W : (⟨2, ![K, N]⟩ : Shape).Idx → EReal) (R : (⟨2, ![1, N]⟩ : Shape).Idx → EReal)
    (W' : (⟨2, ![N, N']⟩ : Shape).Idx → EReal) (R' : (⟨2, ![1, N']⟩ : Shape).Idx → EReal)
    (j : (⟨2, ![m, N']⟩ : Shape).Idx) (i : (⟨2, ![M, N']⟩ : Shape).Idx)
    (h0 : ∀ k : Fin K, x0 (ix2 (j 0) k) = A (ix2 (i 0) k)) (h1 : x1 = W) (h2 : x2 = R)
    (h3 : ∀ k : Fin N, x3 (ix2 k (j 1)) = W' (ix2 k (i 1)))
    (h4 : x4 (ix2 (0 : Fin 1) (j 1)) = R' (ix2 (0 : Fin 1) (i 1))) :
    lin (relu (lin x0 x1 (rowVec x2))) x3 (rowVec x4) j = lin (relu (lin A W (rowVec R))) W' (rowVec R') i := by
  subst h1
  subst h2
  show (∑ k : Fin N, relu (lin x0 x1 (rowVec x2)) (ix2 (j 0) k) * x3 (ix2 k (j 1))) + x4 (ix2 (0 : Fin 1) (j 1))
    = (∑ k : Fin N, relu (lin A x1 (rowVec x2)) (ix2 (i 0) k) * W' (ix2 k (i 1))) + R' (ix2 (0 : Fin 1) (i 1))
  rw [h4]
  refine congrArg (fun z => z + R' (ix2 (0 : Fin 1) (i 1))) (Finset.sum_congr rfl fun k _ => ?_)
  rw [h3 k]
  exact congrArg (fun z => z * W' (ix2 k (i 1)))
    (layer_block x0 x1 x2 A x1 x2 (ix2 (j 0) k) (ix2 (i 0) k) h0 (fun _ => rfl) rfl)

end Cert.Lib.RowLayers

end
-- ==== Proof.LibUnitAxes.lean ====
/-
  General facts about shape casts that only move a unit axis, read at an entry.

  * An [A, B] matrix viewed as [A, 1, B] reads, at (a, 0, b), the matrix at (a, b) (midUnit_apply).
  * An [A, 1, B] array viewed as an [A, B] matrix reads, at (a, b), the array at (a, 0, b) (dropMidUnit_apply).
  * A [K, 1] column viewed as a [1, K] row reads, at (0, k), the column at (k, 0) (colRow_apply).
-/
import Idealize.ShloMosaic.Lib.ValueIdx
import Idealize.ShloMosaic.Lib.Pipeline.Value

noncomputable section

namespace Cert.Lib.UnitAxes

open Idealize.ShloMosaic Idealize.ShloMosaic.ValueIdx

variable {α : Type} {A B K : Nat}

/-- An [A, B] matrix viewed as [A, 1, B]: entry (a, 0, b) is entry (a, b). -/
theorem midUnit_apply (x : (⟨2, ![A, B]⟩ : Shape).Idx → α) (h : (⟨2, ![A, B]⟩ : Shape).ShapeCasts ⟨3, ![A, 1, B]⟩)
    (a : Fin A) (b : Fin B) : shapeCast ⟨3, ![A, 1, B]⟩ x h (ix3 a (0 : Fin 1) b) = x (ix2 a b) :=
  shapeCast_apply x h (ix3 a (0 : Fin 1) b) (ix2 a b) (by
    rw [Shape.rowMajor_val_two, Shape.rowMajor_val_three]
    show a.val * B + b.val = (a.val * 1 + 0) * B + b.val
    rw [Nat.mul_one, Nat.add_zero])

/-- An [A, 1, B] array viewed as an [A, B] matrix: entry (a, b) is entry (a, 0, b). -/
theorem dropMidUnit_apply (x : (⟨3, ![A, 1, B]⟩ : Shape).Idx → α) (h : (⟨3, ![A, 1, B]⟩ : Shape).ShapeCasts ⟨2, ![A, B]⟩)
    (a : Fin A) (b : Fin B) : shapeCast ⟨2, ![A, B]⟩ x h (ix2 a b) = x (ix3 a (0 : Fin 1) b) :=
  shapeCast_apply x h (ix2 a b) (ix3 a (0 : Fin 1) b) (by
    rw [Shape.rowMajor_val_two, Shape.rowMajor_val_three]
    show (a.val * 1 + 0) * B + b.val = a.val * B + b.val
    rw [Nat.mul_one, Nat.add_zero])

/-- A [K, 1] column viewed as a [1, K] row: entry (0, k) is entry (k, 0). -/
theorem colRow_apply (x : (⟨2, ![K, 1]⟩ : Shape).Idx → α) (h : (⟨2, ![K, 1]⟩ : Shape).ShapeCasts ⟨2, ![1, K]⟩)
    (k : Fin K) : shapeCast ⟨2, ![1, K]⟩ x h (ix2 (0 : Fin 1) k) = x (ix2 k (0 : Fin 1)) :=
  shapeCast_apply x h (ix2 (0 : Fin 1) k) (ix2 k (0 : Fin 1)) (by
    rw [Shape.rowMajor_val_two, Shape.rowMajor_val_two]
    show k.val * 1 + 0 = 0 * K + k.val
    rw [Nat.mul_one, Nat.add_zero, Nat.zero_mul, Nat.zero_add])

end Cert.Lib.UnitAxes

end
-- ==== Proof.Gru.lean ====
/-
  A gated recurrent cell on the extended reals, as whole-array functions of its operands, and five cells chained.

  A batch of `M` rows carries a hidden state of 1024 numbers per row. One step forms two rows of 3072
  pre-activations per batch row — `gi`, from the step's input, and `gh`, from the hidden state — and reads them
  as three bands of 1024 columns (reset, update, candidate). With `r = σ(giᵣ + ghᵣ)`, `z = σ(gi_z + gh_z)` and
  `n = tanh(giₙ + r · ghₙ)` the new state is `(1 − z) · n + z · h` (`gateOut`). The input pre-activations are two
  products added plus a bias row (the step's input comes in two blocks), the hidden ones a product plus a bias row
  (`cell`). Every entry of the new state depends on ONE row of the operands only, so a block of rows of a taller
  batch steps to the same rows of the stepped batch (`cell_rowsAt`, `gru5_rowsAt`).

  The two ways the gates are written out: with the logistic function as one operation over slices of the
  pre-activations (`unitGate_eq`), and with the logistic function spelt `1 / (1 + exp (−x))` in host operations
  (`hostGate_eq`); on the extended reals both are `gateOut`.
-/
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws
import proofs.«157512_j81793357185352_1_alg».proof.Proof.LibCatDot
import proofs.«157512_j81793357185352_1_alg».proof.Proof.LibRowLayers
import proofs.«157512_j81793357185352_1_alg».proof.Proof.LibUnitAxes

noncomputable section

open scoped BigOperators

namespace Cert.Gru

open Idealize.ShloMosaic Idealize.ShloMosaic.ValueIdx Cert.Lib.BiasDot Cert.Lib.Dense Cert.Lib.CatDot Cert.Lib.RowLayers

variable {M M' K K' : Nat}

/-- A matrix of extended reals by its two coordinates. -/
abbrev Mat (a b : Nat) := (⟨2, ![a, b]⟩ : Shape).Idx → EReal
/-- A vector of extended reals. -/
abbrev Vc (a : Nat) := (⟨1, ![a]⟩ : Shape).Idx → EReal

/-- Column `j` of the reset band. -/
def colR (j : Fin 1024) : Fin 3072 := ⟨j.val, by omega⟩
/-- Column `j` of the update band. -/
def colZ (j : Fin 1024) : Fin 3072 := ⟨1024 + j.val, by omega⟩
/-- Column `j` of the candidate band. -/
def colN (j : Fin 1024) : Fin 3072 := ⟨2048 + j.val, by omega⟩

/-- The new hidden state from the two rows of pre-activations and the old state. -/
def gateOut (gi gh : Mat M 3072) (h : Mat M 1024) : Mat M 1024 := fun i =>
  (1 - Ideal.logistic (gi (ix2 (i 0) (colZ (i 1))) + gh (ix2 (i 0) (colZ (i 1)))))
      * Ideal.tanh (gi (ix2 (i 0) (colN (i 1)))
          + Ideal.logistic (gi (ix2 (i 0) (colR (i 1))) + gh (ix2 (i 0) (colR (i 1)))) * gh (ix2 (i 0) (colN (i 1))))
    + Ideal.logistic (gi (ix2 (i 0) (colZ (i 1))) + gh (ix2 (i 0) (colZ (i 1)))) * h i

/-- One step: the input in two blocks `x1`, `x2` against the weights `w1`, `w2`, the state against `whh`. -/
def cell (x1 : Mat M K) (w1 : Mat K 3072) (x2 : Mat M K') (w2 : Mat K' 3072) (b : Vc 3072)
    (h : Mat M 1024) (whh : Mat 1024 3072) (bhh : Vc 3072) : Mat M 1024 :=
  gateOut (lin2 x1 w1 x2 w2 b) (lin h whh bhh) h

/-- Rows `f 0, f 1, …` of a matrix. -/
def rowsAt {N : Nat} (f : Fin M' → Fin M) (X : Mat M N) : Mat M' N := fun i => X (ix2 (f (i 0)) (i 1))

theorem gateOut_rowsAt (f : Fin M' → Fin M) (gi gh : Mat M 3072) (h : Mat M 1024) :
    gateOut (rowsAt f gi) (rowsAt f gh) (rowsAt f h) = rowsAt f (gateOut gi gh h) := rfl

theorem lin_rowsAt {N : Nat} (f : Fin M' → Fin M) (x : Mat M K) (w : Mat K N) (b : Vc N) :
    lin (rowsAt f x) w b = rowsAt f (lin x w b) := rfl

theorem lin2_rowsAt {N : Nat} (f : Fin M' → Fin M) (x1 : Mat M K) (w1 : Mat K N) (x2 : Mat M K') (w2 : Mat K' N) (b : Vc N) :
    lin2 (rowsAt f x1) w1 (rowsAt f x2) w2 b = rowsAt f (lin2 x1 w1 x2 w2 b) := rfl

/-- A step of a block of rows is that block of rows of the step. -/
theorem cell_rowsAt (f : Fin M' → Fin M) (x1 : Mat M K) (w1 : Mat K 3072) (x2 : Mat M K') (w2 : Mat K' 3072) (b : Vc 3072)
    (h : Mat M 1024) (whh : Mat 1024 3072) (bhh : Vc 3072) :
    cell (rowsAt f x1) w1 (rowsAt f x2) w2 b (rowsAt f h) whh bhh = rowsAt f (cell x1 w1 x2 w2 b h whh bhh) := by
  unfold cell
  rw [lin2_rowsAt, lin_rowsAt, gateOut_rowsAt]

/-- The all-zero state. -/
def zeros (a b : Nat) : Mat a b := fun _ => 0

theorem zeros_rowsAt {N : Nat} (f : Fin M' → Fin M) : rowsAt f (zeros M N) = zeros M' N := rfl

/-- Five steps from the zero state. The first three take an observation `o0`, `o1`, `o2` (64 numbers) followed by
    the embedding `e` (1024 numbers) as input, against the first 64 and the last 1024 rows of the input weight
    (`wa`, `wb`); the fourth the state after the FIRST step followed by `o1`, the fifth the state after the fourth
    followed by `o2`, against the first 1024 and the last 64 rows (`wc`, `wd`). -/
def gru5 (o0 o1 o2 : Mat M 64) (e : Mat M 1024) (wa : Mat 64 3072) (wb : Mat 1024 3072) (wc : Mat 1024 3072)
    (wd : Mat 64 3072) (bih : Vc 3072) (whh : Mat 1024 3072) (bhh : Vc 3072) : Mat M 1024 :=
  cell (cell (cell o0 wa e wb bih (zeros M 1024) whh bhh) wc o1 wd bih
        (cell o2 wa e wb bih (cell o1 wa e wb bih (cell o0 wa e wb bih (zeros M 1024) whh bhh) whh bhh) whh bhh) whh bhh)
      wc o2 wd bih
    (cell (cell o0 wa e wb bih (zeros M 1024) whh bhh) wc o1 wd bih
        (cell o2 wa e wb bih (cell o1 wa e wb bih (cell o0 wa e wb bih (zeros M 1024) whh bhh) whh bhh) whh bhh) whh bhh)
    whh bhh

/-- Five steps of a block of rows are that block of rows of the five steps. -/
theorem gru5_rowsAt (f : Fin M' → Fin M) (o0 o1 o2 : Mat M 64) (e : Mat M 1024) (wa : Mat 64 3072) (wb : Mat 1024 3072)
    (wc : Mat 1024 3072) (wd : Mat 64 3072) (bih : Vc 3072) (whh : Mat 1024 3072) (bhh : Vc 3072) :
    gru5 (rowsAt f o0) (rowsAt f o1) (rowsAt f o2) (rowsAt f e) wa wb wc wd bih whh bhh
      = rowsAt f (gru5 o0 o1 o2 e wa wb wc wd bih whh bhh) := by
  unfold gru5
  simp only [← zeros_rowsAt f, cell_rowsAt]

/-- The observations of time step `t`: one row of 64 numbers per batch row. -/
def obsAt (a : (⟨3, ![M, 8, 64]⟩ : Shape).Idx → EReal) (t : Fin 8) : Mat M 64 := fun i => a (ix3 (i 0) t (i 1))

/-- Batch rows `f 0, f 1, …` of an array of observations. -/
def rowsAt3 (f : Fin M' → Fin M) (a : (⟨3, ![M, 8, 64]⟩ : Shape).Idx → EReal) : (⟨3, ![M', 8, 64]⟩ : Shape).Idx → EReal :=
  fun i => a (ix3 (f (i 0)) (i 1) (i 2))

theorem obsAt_rowsAt3 (f : Fin M' → Fin M) (a : (⟨3, ![M, 8, 64]⟩ : Shape).Idx → EReal) (t : Fin 8) :
    obsAt (rowsAt3 f a) t = rowsAt f (obsAt a t) := rfl

/-- The slice of one time step, with its unit axis dropped, is that step's observations. -/
theorem obsSlice_eq (a : (⟨3, ![M, 8, 64]⟩ : Shape).Idx → EReal) (o : Nat) (t : Fin 8) (ho : t.val = o)
    (hs : (⟨3, ![M, 8, 64]⟩ : Shape).Slices ![0, o, 0] ⟨3, ![M, 1, 64]⟩)
    (hc : (⟨3, ![M, 1, 64]⟩ : Shape).ShapeCasts ⟨2, ![M, 64]⟩) :
    shapeCast ⟨2, ![M, 64]⟩ (extractStridedSlice ⟨3, ![M, 1, 64]⟩ ![0, o, 0] a hs) hc = obsAt a t := by
  funext i
  obtain ⟨p, q, rfl⟩ : ∃ (p : Fin M) (q : Fin 64), i = ix2 p q := ⟨i 0, i 1, eq_ix2 i⟩
  rw [Cert.Lib.UnitAxes.dropMidUnit_apply, slice3_axis1_apply o a hs p (0 : Fin 1) q t (by rw [ho]; rfl)]
  rfl

/-! ## The gates as the vector unit and as the host write them -/

/-- A band of 1024 columns of a matrix of 3072 columns, read at an entry. -/
theorem band_apply (o : Nat) (X : Mat M 3072) (hs : (⟨2, ![M, 3072]⟩ : Shape).Slices ![0, o] ⟨2, ![M, 1024]⟩)
    (p : Fin M) (j : Fin 1024) (k : Fin 3072) (hk : k.val = o + j.val) :
    extractStridedSlice ⟨2, ![M, 1024]⟩ ![0, o] X hs (ix2 p j) = X (ix2 p k) :=
  slice2_axis1_apply o X hs p j k hk

/-- The gates with the logistic function as one operation over bands of the pre-activations. -/
theorem unitGate_eq (gi gh : FVec Ideal ⟨2, ![M, 3072]⟩ .f32) (h : FVec Ideal ⟨2, ![M, 1024]⟩ .f32)
    (hs0 : (⟨2, ![M, 3072]⟩ : Shape).Slices ![0, 0] ⟨2, ![M, 1024]⟩)
    (hs1 : (⟨2, ![M, 3072]⟩ : Shape).Slices ![0, 1024] ⟨2, ![M, 1024]⟩)
    (hs2 : (⟨2, ![M, 3072]⟩ : Shape).Slices ![0, 2048] ⟨2, ![M, 1024]⟩) :
    addf (mulf (subf (broadcast ⟨2, ![M, 1024]⟩ (Scalar.ofBits (F := Ideal) .f32 0x3F800000#32))
            (logistic (addf (extractStridedSlice ⟨2, ![M, 1024]⟩ ![0, 1024] gi hs1) (extractStridedSlice ⟨2, ![M, 1024]⟩ ![0, 1024] gh hs1))))
          (tanh (addf (extractStridedSlice ⟨2, ![M, 1024]⟩ ![0, 2048] gi hs2)
            (mulf (logistic (addf (extractStridedSlice ⟨2, ![M, 1024]⟩ ![0, 0] gi hs0) (extractStridedSlice ⟨2, ![M, 1024]⟩ ![0, 0] gh hs0)))
              (extractStridedSlice ⟨2, ![M, 1024]⟩ ![0, 2048] gh hs2)))))
        (mulf (logistic (addf (extractStridedSlice ⟨2, ![M, 1024]⟩ ![0, 1024] gi hs1) (extractStridedSlice ⟨2, ![M, 1024]⟩ ![0, 1024] gh hs1))) h)
      = gateOut gi gh h := by
  funext i
  obtain ⟨p, j, rfl⟩ : ∃ (p : Fin M) (j : Fin 1024), i = ix2 p j := ⟨i 0, i 1, eq_ix2 i⟩
  simp only [addf, mulf, subf, logistic, tanh, broadcast]
  rw [band_apply 1024 gi hs1 p j (colZ j) rfl, band_apply 1024 gh hs1 p j (colZ j) rfl,
    band_apply 2048 gi hs2 p j (colN j) rfl, band_apply 2048 gh hs2 p j (colN j) rfl,
    band_apply 0 gi hs0 p j (colR j) (Nat.zero_add _).symm, band_apply 0 gh hs0 p j (colR j) (Nat.zero_add _).symm]
  show FloatOps.addf (FloatOps.mulf (FloatOps.subf (Ideal.ofBits .f32 0x3F800000#32) _) _) _ = _
  rw [Ideal.ofBits_one_f32]
  rfl

/-- The scalar one broadcast to any shape is one everywhere. -/
theorem hostOne_apply {t : Shape} (dims : Fin 0 → Fin t.rank) (h : (⟨0, ![]⟩ : Shape).BroadcastsInDim t dims) (j : t.Idx) :
    broadcastInDim t dims h (constant (F := Ideal) ⟨0, ![]⟩ .f32 0x3F800000#32) j = 1 := by
  refine (broadcastInDim_apply (s := ⟨0, ![]⟩) dims h _ j (fun a => a.elim0) (fun a => a.elim0)).trans ?_
  rw [constant_apply, Ideal.ofBits_one_f32]

/-- The gates with the logistic function spelt `1 / (1 + exp (−x))` in host operations. -/
theorem hostGate_eq (gi gh : FVec Ideal ⟨2, ![M, 3072]⟩ .f32) (h : FVec Ideal ⟨2, ![M, 1024]⟩ .f32)
    (hs0 : (⟨2, ![M, 3072]⟩ : Shape).Slices ![0, 0] ⟨2, ![M, 1024]⟩)
    (hs1 : (⟨2, ![M, 3072]⟩ : Shape).Slices ![0, 1024] ⟨2, ![M, 1024]⟩)
    (hs2 : (⟨2, ![M, 3072]⟩ : Shape).Slices ![0, 2048] ⟨2, ![M, 1024]⟩)
    (dims : Fin 0 → Fin 2) (hb : (⟨0, ![]⟩ : Shape).BroadcastsInDim ⟨2, ![M, 1024]⟩ dims) :
    addf (mulf (subf (broadcastInDim ⟨2, ![M, 1024]⟩ dims hb (constant (F := Ideal) ⟨0, ![]⟩ .f32 0x3F800000#32))
            (Host.divf (broadcastInDim ⟨2, ![M, 1024]⟩ dims hb (constant (F := Ideal) ⟨0, ![]⟩ .f32 0x3F800000#32))
              (addf (broadcastInDim ⟨2, ![M, 1024]⟩ dims hb (constant (F := Ideal) ⟨0, ![]⟩ .f32 0x3F800000#32))
                (Host.exp (Host.negf (addf (extractStridedSlice ⟨2, ![M, 1024]⟩ ![0, 1024] gi hs1) (extractStridedSlice ⟨2, ![M, 1024]⟩ ![0, 1024] gh hs1)))))))
          (Host.tanh (addf (extractStridedSlice ⟨2, ![M, 1024]⟩ ![0, 2048] gi hs2)
            (mulf (Host.divf (broadcastInDim ⟨2, ![M, 1024]⟩ dims hb (constant (F := Ideal) ⟨0, ![]⟩ .f32 0x3F800000#32))
                (addf (broadcastInDim ⟨2, ![M, 1024]⟩ dims hb (constant (F := Ideal) ⟨0, ![]⟩ .f32 0x3F800000#32))
                  (Host.exp (Host.negf (addf (extractStridedSlice ⟨2, ![M, 1024]⟩ ![0, 0] gi hs0) (extractStridedSlice ⟨2, ![M, 1024]⟩ ![0, 0] gh hs0))))))
              (extractStridedSlice ⟨2, ![M, 1024]⟩ ![0, 2048] gh hs2)))))
        (mulf (Host.divf (broadcastInDim ⟨2, ![M, 1024]⟩ dims hb (constant (F := Ideal) ⟨0, ![]⟩ .f32 0x3F800000#32))
              (addf (broadcastInDim ⟨2, ![M, 1024]⟩ dims hb (constant (F := Ideal) ⟨0, ![]⟩ .f32 0x3F800000#32))
                (Host.exp (Host.negf (addf (extractStridedSlice ⟨2, ![M, 1024]⟩ ![0, 1024] gi hs1) (extractStridedSlice ⟨2, ![M, 1024]⟩ ![0, 1024] gh hs1))))))
          h)
      = gateOut gi gh h := by
  funext i
  obtain ⟨p, j, rfl⟩ : ∃ (p : Fin M) (j : Fin 1024), i = ix2 p j := ⟨i 0, i 1, eq_ix2 i⟩
  simp only [addf, mulf, subf, Host.divf, Host.exp, Host.negf, Host.tanh]
  rw [band_apply 1024 gi hs1 p j (colZ j) rfl, band_apply 1024 gh hs1 p j (colZ j) rfl,
    band_apply 2048 gi hs2 p j (colN j) rfl, band_apply 2048 gh hs2 p j (colN j) rfl,
    band_apply 0 gi hs0 p j (colR j) (Nat.zero_add _).symm, band_apply 0 gh hs0 p j (colR j) (Nat.zero_add _).symm]
  simp only [hostOne_apply]
  rfl

end Cert.Gru

end
-- ==== Proof.RefSide.lean ====
/-
  The reference's run, read as five gated recurrent steps.

  The reference gathers one embedding row per batch row, and steps a hidden state of 1024 numbers per batch row five
  times from zero. A step concatenates its two input blocks along the columns, multiplies by the transposed input
  weight and adds the input bias; multiplies the state by the transposed hidden weight and adds the hidden bias; and
  gates. Entry by entry the concatenated product is the sum of the two blocks' products against the first and the
  last rows of the transposed weight, so each step is `Gru.cell` and the run's result is `Gru.gru5` with a leading
  unit axis.
-/
import proofs.«157512_j81793357185352_1_alg».proof.Proof.Gen.ReferenceIdeal.Run
import proofs.«157512_j81793357185352_1_alg».proof.Proof.Gru

noncomputable section

open scoped BigOperators

namespace Cert.ReferenceIdeal.Hand

open Cert.ReferenceIdeal Cert.ReferenceIdeal.Gen Cert.ReferenceIdeal.Value
open Idealize.ShloMosaic Idealize.ShloMosaic.TcCoe Idealize.SL.Sem Idealize.ShloMosaic.StableHlo Idealize.ShloMosaic.ValueIdx
open Cert.Gru Cert.Lib.BiasDot Cert.Lib.Dense Cert.Lib.CatDot

/-- The input pre-activations of a step whose input is an observation followed by the embedding. -/
theorem giObsFirst_eq (a0 : FVec Ideal S16384x8x64 .f32) (E : FVec Ideal S16384x1024 .f32) (W : FVec Ideal S1088x3072 .f32)
    (b : FVec Ideal S3072 .f32) (o : Nat) (t : Fin 8) (ho : t.val = o) (hs : S16384x8x64.Slices ![0, o, 0] S16384x1x64) :
    addf (Host.dotGeneral dot_S16384x1088_S1088x3072_S16384x3072_1_0_0_1_n_n none
          (concatenate S16384x1088 1 [⟨S16384x64, shapeCast S16384x64 (extractStridedSlice S16384x1x64 ![0, o, 0] a0 hs) shapeCasts_S16384x1x64_S16384x64⟩,
            ⟨S16384x1024, E⟩] concatenates_S16384x64_S16384x1024_S16384x1088_d1) W)
        (broadcastInDim S16384x3072 ![0, 1] bcast_S1x3072_S16384x3072_0_1 (broadcastInDim S1x3072 ![1] bcast_S3072_S1x3072_1 b))
      = lin2 (obsAt a0 t) (rowsTop (K := 64) (K' := 1024) W) E (rowsBot (K := 64) (K' := 1024) W) b := by
  rw [obsSlice_eq a0 o t ho hs]
  exact host_concat_lin2 (M := 16384) (K := 64) (K' := 1024) (N := 3072) _ rfl _ _ W b _ _ _

/-- The input pre-activations of a step whose input is an earlier state followed by an observation. -/
theorem giStateFirst_eq (a0 : FVec Ideal S16384x8x64 .f32) (H : FVec Ideal S16384x1024 .f32) (W : FVec Ideal S1088x3072 .f32)
    (b : FVec Ideal S3072 .f32) (o : Nat) (t : Fin 8) (ho : t.val = o) (hs : S16384x8x64.Slices ![0, o, 0] S16384x1x64) :
    addf (Host.dotGeneral dot_S16384x1088_S1088x3072_S16384x3072_1_0_0_1_n_n none
          (concatenate S16384x1088 1 [⟨S16384x1024, H⟩,
            ⟨S16384x64, shapeCast S16384x64 (extractStridedSlice S16384x1x64 ![0, o, 0] a0 hs) shapeCasts_S16384x1x64_S16384x64⟩]
            concatenates_S16384x1024_S16384x64_S16384x1088_d1) W)
        (broadcastInDim S16384x3072 ![0, 1] bcast_S1x3072_S16384x3072_0_1 (broadcastInDim S1x3072 ![1] bcast_S3072_S1x3072_1 b))
      = lin2 H (rowsTop (K := 1024) (K' := 64) W) (obsAt a0 t) (rowsBot (K := 1024) (K' := 64) W) b := by
  rw [obsSlice_eq a0 o t ho hs]
  exact host_concat_lin2 (M := 16384) (K := 1024) (K' := 64) (N := 3072) _ rfl _ _ W b _ _ _

/-- The hidden pre-activations. -/
theorem gh_eq (H : FVec Ideal S16384x1024 .f32) (W : FVec Ideal S1024x3072 .f32) (b : FVec Ideal S3072 .f32) :
    addf (Host.dotGeneral dot_S16384x1024_S1024x3072_S16384x3072_1_0_0_1_n_n none H W)
        (broadcastInDim S16384x3072 ![0, 1] bcast_S1x3072_S16384x3072_0_1 (broadcastInDim S1x3072 ![1] bcast_S3072_S1x3072_1 b))
      = lin H W b :=
  host_lin (M := 16384) (K := 1024) (N := 3072) _ rfl H W b _ _

variable (V0 : Valuation τ sig (Elt Ideal))

/-- The transposed input weight. -/
abbrev wihT : FVec Ideal S1088x3072 .f32 :=
  transpose S1088x3072 [1, 0] (V0 (Proc.devRef .tc main_arg3)) transposes_S3072x1088_S1088x3072_1_0
/-- The transposed hidden weight. -/
abbrev whhT : FVec Ideal S1024x3072 .f32 :=
  transpose S1024x3072 [1, 0] (V0 (Proc.devRef .tc main_arg4)) transposes_S3072x1024_S1024x3072_1_0
/-- The observations. -/
abbrev obs : FVec Ideal S16384x8x64 .f32 := V0 (Proc.devRef .tc main_arg0)
/-- The input bias. -/
abbrev bih : FVec Ideal S3072 .f32 := V0 (Proc.devRef .tc main_arg5)
/-- The hidden bias. -/
abbrev bhh : FVec Ideal S3072 .f32 := V0 (Proc.devRef .tc main_arg6)

/-- A step on an observation followed by the embedding. -/
abbrev stepE (t : Fin 8) (h : Mat 16384 1024) : Mat 16384 1024 :=
  cell (obsAt (obs V0) t) (rowsTop (K := 64) (K' := 1024) (wihT V0)) (res_main_v6 V0) (rowsBot (K := 64) (K' := 1024) (wihT V0)) (bih V0)
    h (whhT V0) (bhh V0)

/-- A step on an earlier state followed by an observation. -/
abbrev stepH (x : Mat 16384 1024) (t : Fin 8) (h : Mat 16384 1024) : Mat 16384 1024 :=
  cell x (rowsTop (K := 1024) (K' := 64) (wihT V0)) (obsAt (obs V0) t) (rowsBot (K := 1024) (K' := 64) (wihT V0)) (bih V0)
    h (whhT V0) (bhh V0)

theorem h0_eq : res_main_v7 V0 = zeros 16384 1024 := by
  unfold res_main_v7
  funext i
  exact hostZero_apply _ _ i

theorem h1_eq : res_main_v48 V0 = stepE V0 0 (zeros 16384 1024) := by
  unfold res_main_v48 res_main_v40
  rw [hostGate_eq]
  unfold res_main_v15 res_main_v20
  rw [giObsFirst_eq _ _ _ _ 0 0 rfl, gh_eq, h0_eq]
  rfl

theorem h2_eq : res_main_v89 V0 = stepE V0 1 (res_main_v48 V0) := by
  unfold res_main_v89 res_main_v81
  rw [hostGate_eq]
  unfold res_main_v56 res_main_v61
  rw [giObsFirst_eq _ _ _ _ 1 1 rfl, gh_eq]
  rfl

theorem h3_eq : res_main_v130 V0 = stepE V0 2 (res_main_v89 V0) := by
  unfold res_main_v130 res_main_v122
  rw [hostGate_eq]
  unfold res_main_v97 res_main_v102
  rw [giObsFirst_eq _ _ _ _ 2 2 rfl, gh_eq]
  rfl

theorem h4_eq : res_main_v171 V0 = stepH V0 (res_main_v48 V0) 1 (res_main_v130 V0) := by
  unfold res_main_v171 res_main_v163
  rw [hostGate_eq]
  unfold res_main_v138 res_main_v143
  rw [giStateFirst_eq _ _ _ _ 1 1 rfl, gh_eq]
  rfl

/-- The reference's result: the five steps, with a leading unit axis. -/
theorem result_eq : val5 V0 (no_index (Proc.devRef .tc main_v213))
    = fun i : S1x16384x1024.Idx => gru5 (obsAt (obs V0) 0) (obsAt (obs V0) 1) (obsAt (obs V0) 2) (res_main_v6 V0)
        (rowsTop (K := 64) (K' := 1024) (wihT V0)) (rowsBot (K := 64) (K' := 1024) (wihT V0))
        (rowsTop (K := 1024) (K' := 64) (wihT V0)) (rowsBot (K := 1024) (K' := 64) (wihT V0))
        (bih V0) (whhT V0) (bhh V0) (ix2 (i 1) (i 2)) := by
  rw [val5_main_v213]
  unfold res_main_v204
  rw [hostGate_eq]
  unfold res_main_v179 res_main_v184
  rw [giStateFirst_eq _ _ _ _ 2 2 rfl, gh_eq, h4_eq, h3_eq, h2_eq, h1_eq]
  funext i
  refine broadcastInDim_apply ![1, 2] _ _ i (ix2 (i 1) (i 2)) (fun a => ?_)
  match a with
  | ⟨0, _⟩ => exact (if_neg (by decide : ¬ (16384 : Nat) = 1)).symm
  | ⟨1, _⟩ => exact (if_neg (by decide : ¬ (1024 : Nat) = 1)).symm

end Cert.ReferenceIdeal.Hand

end
-- ==== Proof.LibUnitLin.lean ====
/-
  A matrix unit's linear layers with a loaded bias row, read as whole-array functions on the extended reals.

  A product into a zero accumulator read at an entry is the plain sum of products. Two such products added, plus a
  `1 × N` bias row repeated down the `M` rows, are the two-product layer `lin2` of the four operands and the row read
  as a vector; one product plus the row is `lin`. The operands may be of any float formats. Narrowing an array to a
  shorter float format is the identity on extended reals, and the splat of the zero word is the zero array.
-/
import Idealize.ShloMosaic.Lib.ValueIdx
import Idealize.ShloMosaic.Lib.ValueLayout
import Idealize.ShloMosaic.Lib.Pipeline.Value
import Idealize.ShloMosaic.PureOps.Ideal.Laws
import proofs.«157512_j81793357185352_1_alg».proof.Proof.LibRowLayers

noncomputable section

open scoped BigOperators

namespace Cert.Lib.UnitLin

open Idealize.ShloMosaic Idealize.ShloMosaic.ValueIdx Cert.Lib.BiasDot Cert.Lib.Dense Cert.Lib.RowLayers

variable {M K K' N : Nat}

/-- Two products into zero, added, plus the repeated bias row: the two-product layer. -/
theorem unitLin2_eq {φ₁ φ₂ φ₃ φ₄ : FTy} (d1 : DotDims ⟨2, ![M, K]⟩ ⟨2, ![K, N]⟩ ⟨2, ![M, N]⟩) (hd1 : d1 = DotDims.plain M K N)
    (d2 : DotDims ⟨2, ![M, K']⟩ ⟨2, ![K', N]⟩ ⟨2, ![M, N]⟩) (hd2 : d2 = DotDims.plain M K' N)
    (X1 : FVec Ideal ⟨2, ![M, K]⟩ φ₁) (W1 : FVec Ideal ⟨2, ![K, N]⟩ φ₂) (X2 : FVec Ideal ⟨2, ![M, K']⟩ φ₃) (W2 : FVec Ideal ⟨2, ![K', N]⟩ φ₄)
    (R : FVec Ideal ⟨2, ![1, N]⟩ .f32) (hb : (⟨2, ![1, N]⟩ : Shape).Broadcasts ⟨2, ![M, N]⟩) :
    addf (addf (FloatOps.matmul d1 none X1 W1 (constant ⟨2, ![M, N]⟩ .f32 0x00000000#32))
          (FloatOps.matmul d2 none X2 W2 (constant ⟨2, ![M, N]⟩ .f32 0x00000000#32)))
        (broadcastTo ⟨2, ![M, N]⟩ R hb)
      = lin2 X1 W1 X2 W2 (rowVec R) := by
  subst hd1
  subst hd2
  funext i
  obtain ⟨p, q, rfl⟩ : ∃ (p : Fin M) (q : Fin N), i = ix2 p q := ⟨i 0, i 1, eq_ix2 i⟩
  rw [addf_apply, addf_apply, broadcastTo_1b_ab_apply, Cert.Lib.PlainDot.matmul_zero_apply, Cert.Lib.PlainDot.matmul_zero_apply]
  rfl

/-- One product into zero plus the repeated bias row: the linear layer. -/
theorem unitLin_eq {φ₁ φ₂ : FTy} (d : DotDims ⟨2, ![M, K]⟩ ⟨2, ![K, N]⟩ ⟨2, ![M, N]⟩) (hd : d = DotDims.plain M K N)
    (X : FVec Ideal ⟨2, ![M, K]⟩ φ₁) (W : FVec Ideal ⟨2, ![K, N]⟩ φ₂)
    (R : FVec Ideal ⟨2, ![1, N]⟩ .f32) (hb : (⟨2, ![1, N]⟩ : Shape).Broadcasts ⟨2, ![M, N]⟩) :
    addf (FloatOps.matmul d none X W (constant ⟨2, ![M, N]⟩ .f32 0x00000000#32)) (broadcastTo ⟨2, ![M, N]⟩ R hb)
      = lin X W (rowVec R) := by
  subst hd
  funext i
  obtain ⟨p, q, rfl⟩ : ∃ (p : Fin M) (q : Fin N), i = ix2 p q := ⟨i 0, i 1, eq_ix2 i⟩
  rw [addf_apply, broadcastTo_1b_ab_apply, Cert.Lib.PlainDot.matmul_zero_apply]
  rfl

/-- Narrowing to the shorter float format is the identity on extended reals. -/
theorem narrow_eq {s : Shape} (X : FVec Ideal s .f32) (h : FTy.bf16.bits < FTy.f32.bits) :
    ((truncf .bf16 X h : FVec Ideal s .bf16) : s.Idx → EReal) = X := rfl

/-- The splat of the zero word is zero everywhere. -/
theorem zeroSplat_eq {s : Shape} :
    (broadcast s (Scalar.ofBits (F := Ideal) .f32 0x00000000#32) : s.Idx → EReal) = fun _ => 0 := by
  funext i
  show Ideal.ofBits .f32 0x00000000#32 = 0
  exact Ideal.ofBits_zero_f32

end Cert.Lib.UnitLin

end
-- ==== Proof.KerBody.lean ====
/-
  What the kernel's body leaves in its output block, as five gated recurrent steps of its input blocks.

  The body loads a block of 128 batch rows of observations and embeddings and the whole weights and bias rows, and
  steps the hidden state five times from zero: each step is two products into zero added, plus the repeated input
  bias row; a product of the narrowed state plus the repeated hidden bias row; and the gates over bands of 1024
  columns. Each value the body names is read here as the matching piece of `Gru.cell`, and the one store's payload is
  `Gru.gru5` of the blocks with a leading unit axis.
-/
import proofs.«157512_j81793357185352_1_alg».proof.Proof.Gen.KernelIdeal.Frame
import proofs.«157512_j81793357185352_1_alg».proof.Proof.Gru
import proofs.«157512_j81793357185352_1_alg».proof.Proof.LibUnitLin

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Cert.Gru Cert.Lib.BiasDot Cert.Lib.Dense Cert.Lib.CatDot Cert.Lib.RowLayers Cert.Lib.UnitLin

/-! ## The loaded blocks, re-cast to their own shapes -/

theorem pay2_eq (v : Vec Ideal S1x3072 .f32) : k0_pay2 v = v := shapeCast_self _ _
theorem pay3_eq (v : Vec Ideal S1x3072 .f32) : k0_pay3 v = v := shapeCast_self _ _
theorem pay4_eq (v : Vec Ideal S64x3072 .bf16) : k0_pay4 v = v := shapeCast_self _ _
theorem pay5_eq (v : Vec Ideal S1024x3072 .bf16) : k0_pay5 v = v := shapeCast_self _ _
theorem pay6_eq (v : Vec Ideal S1024x3072 .bf16) : k0_pay6 v = v := shapeCast_self _ _
theorem pay7_eq (v : Vec Ideal S64x3072 .bf16) : k0_pay7 v = v := shapeCast_self _ _
theorem pay8_eq (v : Vec Ideal S1024x3072 .bf16) : k0_pay8 v = v := shapeCast_self _ _
theorem pay9_eq (v : Vec Ideal S128x8x64 .bf16) : k0_pay9 v = v := shapeCast_self _ _
theorem pay10_eq (v : Vec Ideal S128x1024 .bf16) : k0_pay10 v = v := shapeCast_self _ _

/-! ## The observations of the first three time steps -/

theorem pay11_eq (x0 : Vec Ideal S128x8x64 .bf16) : k0_pay11 x0 = obsAt x0 1 := by
  unfold k0_pay11
  rw [pay9_eq]
  exact obsSlice_eq x0 1 1 rfl _ _

theorem pay12_eq (x0 : Vec Ideal S128x8x64 .bf16) : k0_pay12 x0 = obsAt x0 2 := by
  unfold k0_pay12
  rw [pay9_eq]
  exact obsSlice_eq x0 2 2 rfl _ _

/-! ## The first step, from the zero state -/

theorem pay13_eq : (k0_pay13 (F := Ideal) : S128x1024.Idx → EReal) = zeros 128 1024 := zeroSplat_eq

theorem pay14_eq (x7 : Vec Ideal S1x3072 .f32) (x2 : Vec Ideal S64x3072 .bf16) (x3 : Vec Ideal S1024x3072 .bf16)
    (x0 : Vec Ideal S128x8x64 .bf16) (x1 : Vec Ideal S128x1024 .bf16) :
    k0_pay14 x7 x2 x3 x0 x1 = lin2 (obsAt x0 0) x2 x1 x3 (rowVec x7) := by
  unfold k0_pay14
  rw [pay9_eq, pay4_eq, pay10_eq, pay5_eq, pay2_eq]
  refine (unitLin2_eq dot_S128x64_S64x3072_S128x3072_1_0_0_1_n_n rfl dot_S128x1024_S1024x3072_S128x3072_1_0_0_1_n_n rfl _ _ _ _ _ _).trans ?_
  rw [obsSlice_eq x0 0 0 rfl]

theorem pay15_eq (x8 : Vec Ideal S1x3072 .f32) (x6 : Vec Ideal S1024x3072 .bf16) :
    k0_pay15 x8 x6 = lin (zeros 128 1024) x6 (rowVec x8) := by
  unfold k0_pay15
  rw [pay8_eq, pay3_eq]
  refine (unitLin_eq dot_S128x1024_S1024x3072_S128x3072_1_0_0_1_n_n rfl _ _ _ _).trans ?_
  rw [narrow_eq, pay13_eq]

theorem pay16_eq (x7 : Vec Ideal S1x3072 .f32) (x2 : Vec Ideal S64x3072 .bf16) (x3 : Vec Ideal S1024x3072 .bf16)
    (x0 : Vec Ideal S128x8x64 .bf16) (x1 : Vec Ideal S128x1024 .bf16) :
    k0_pay16 x7 x2 x3 x0 x1 = extractStridedSlice S128x1024 ![0, 0] (k0_pay14 x7 x2 x3 x0 x1) slices_S128x3072_o0_0_S128x1024 := rfl

theorem pay17_eq (x7 : Vec Ideal S1x3072 .f32) (x2 : Vec Ideal S64x3072 .bf16) (x3 : Vec Ideal S1024x3072 .bf16)
    (x0 : Vec Ideal S128x8x64 .bf16) (x1 : Vec Ideal S128x1024 .bf16) :
    k0_pay17 x7 x2 x3 x0 x1 = extractStridedSlice S128x1024 ![0, 1024] (k0_pay14 x7 x2 x3 x0 x1) slices_S128x3072_o0_1024_S128x1024 := rfl

theorem pay18_eq (v24 : FVec Ideal S128x1024 .f32) (v29 v33 : FVec Ideal S128x3072 .f32) :
    k0_pay18 v24 v29 v33 (extractStridedSlice S128x1024 ![0, 0] v29 slices_S128x3072_o0_0_S128x1024)
        (extractStridedSlice S128x1024 ![0, 1024] v29 slices_S128x3072_o0_1024_S128x1024)
      = gateOut v29 v33 v24 := by
  unfold k0_pay18
  exact unitGate_eq v29 v33 v24 _ _ _

/-! ## The second and third steps -/

theorem pay19_eq (v1 v3 : FVec Ideal S1x3072 .f32) (v5 : FVec Ideal S64x3072 .bf16) (v7 v13 : FVec Ideal S1024x3072 .bf16)
    (v17 : FVec Ideal S128x1024 .bf16) (v21 : FVec Ideal S128x64 .bf16) (v24 : FVec Ideal S128x1024 .f32)
    (v29 v33 : FVec Ideal S128x3072 .f32) (v34 v35 : FVec Ideal S128x1024 .f32) :
    k0_pay19 v1 v3 v5 v7 v13 v17 v21 v24 v29 v33 v34 v35
      = cell v21 v5 v17 v7 (rowVec v1) (k0_pay18 v24 v29 v33 v34 v35) v13 (rowVec v3) := by
  unfold k0_pay19
  refine (unitGate_eq _ _ _ _ _ _).trans ?_
  rw [unitLin2_eq dot_S128x64_S64x3072_S128x3072_1_0_0_1_n_n rfl dot_S128x1024_S1024x3072_S128x3072_1_0_0_1_n_n rfl, unitLin_eq dot_S128x1024_S1024x3072_S128x3072_1_0_0_1_n_n rfl, narrow_eq]
  rfl

theorem pay20_eq (v1 : FVec Ideal S1x3072 .f32) (v5 : FVec Ideal S64x3072 .bf16) (v7 : FVec Ideal S1024x3072 .bf16)
    (v17 : FVec Ideal S128x1024 .bf16) (v23 : FVec Ideal S128x64 .bf16) :
    k0_pay20 v1 v5 v7 v17 v23 = lin2 v23 v5 v17 v7 (rowVec v1) := by
  unfold k0_pay20
  exact unitLin2_eq dot_S128x64_S64x3072_S128x3072_1_0_0_1_n_n rfl dot_S128x1024_S1024x3072_S128x3072_1_0_0_1_n_n rfl _ _ _ _ _ _

theorem pay21_eq (v1 v3 : FVec Ideal S1x3072 .f32) (v5 : FVec Ideal S64x3072 .bf16) (v7 v13 : FVec Ideal S1024x3072 .bf16)
    (v17 : FVec Ideal S128x1024 .bf16) (v21 : FVec Ideal S128x64 .bf16) (v24 : FVec Ideal S128x1024 .f32)
    (v29 v33 : FVec Ideal S128x3072 .f32) (v34 v35 : FVec Ideal S128x1024 .f32) :
    k0_pay21 v1 v3 v5 v7 v13 v17 v21 v24 v29 v33 v34 v35
      = lin (k0_pay19 v1 v3 v5 v7 v13 v17 v21 v24 v29 v33 v34 v35) v13 (rowVec v3) := by
  unfold k0_pay21
  refine (unitLin_eq dot_S128x1024_S1024x3072_S128x3072_1_0_0_1_n_n rfl _ _ _ _).trans ?_
  rw [narrow_eq]

/-! ## The fourth step, and the fifth step's pre-activations -/

theorem pay22_eq (v1 v3 : FVec Ideal S1x3072 .f32) (v9 : FVec Ideal S1024x3072 .bf16) (v11 : FVec Ideal S64x3072 .bf16)
    (v13 : FVec Ideal S1024x3072 .bf16) (v21 : FVec Ideal S128x64 .bf16) (v51 v78 : FVec Ideal S128x1024 .f32)
    (v83 v87 : FVec Ideal S128x3072 .f32) :
    k0_pay22 v1 v3 v9 v11 v13 v21 v51 v78 v83 v87
      = cell v51 v9 v21 v11 (rowVec v1) (gateOut v83 v87 v78) v13 (rowVec v3) := by
  unfold k0_pay22
  refine (unitGate_eq _ _ _ _ _ _).trans ?_
  rw [unitLin2_eq dot_S128x1024_S1024x3072_S128x3072_1_0_0_1_n_n rfl dot_S128x64_S64x3072_S128x3072_1_0_0_1_n_n rfl, unitLin_eq dot_S128x1024_S1024x3072_S128x3072_1_0_0_1_n_n rfl, unitGate_eq, narrow_eq, narrow_eq]
  rfl

theorem pay23_eq (v1 v3 : FVec Ideal S1x3072 .f32) (v9 : FVec Ideal S1024x3072 .bf16) (v11 : FVec Ideal S64x3072 .bf16)
    (v13 : FVec Ideal S1024x3072 .bf16) (v21 v23 : FVec Ideal S128x64 .bf16) (v51 v78 : FVec Ideal S128x1024 .f32)
    (v83 v87 : FVec Ideal S128x3072 .f32) :
    k0_pay23 v1 v3 v9 v11 v13 v21 v23 v51 v78 v83 v87
      = lin2 (k0_pay22 v1 v3 v9 v11 v13 v21 v51 v78 v83 v87) v9 v23 v11 (rowVec v1) := by
  unfold k0_pay23
  refine (unitLin2_eq dot_S128x1024_S1024x3072_S128x3072_1_0_0_1_n_n rfl dot_S128x64_S64x3072_S128x3072_1_0_0_1_n_n rfl _ _ _ _ _ _).trans ?_
  rw [narrow_eq]

theorem pay24_eq (v1 v3 : FVec Ideal S1x3072 .f32) (v9 : FVec Ideal S1024x3072 .bf16) (v11 : FVec Ideal S64x3072 .bf16)
    (v13 : FVec Ideal S1024x3072 .bf16) (v21 : FVec Ideal S128x64 .bf16) (v51 v78 : FVec Ideal S128x1024 .f32)
    (v83 v87 : FVec Ideal S128x3072 .f32) :
    (k0_pay24 v1 v3 v9 v11 v13 v21 v51 v78 v83 v87 : S128x1024.Idx → EReal)
      = k0_pay22 v1 v3 v9 v11 v13 v21 v51 v78 v83 v87 := rfl

/-! ## The fifth step's gates, and the stored block -/

theorem pay1_eq (v3 : FVec Ideal S1x3072 .f32) (v13 : FVec Ideal S1024x3072 .bf16) (v133 : FVec Ideal S128x1024 .f32)
    (v139 : FVec Ideal S128x3072 .f32) (v140 : FVec Ideal S128x1024 .bf16) :
    k0_pay1 v3 v13 v133 v139 v140
      = shapeCast S1x128x1024 (gateOut v139 (lin v140 v13 (rowVec v3)) v133) shapeCasts_S128x1024_S1x128x1024 := by
  unfold k0_pay1
  refine congrArg (fun z => shapeCast S1x128x1024 z shapeCasts_S128x1024_S1x128x1024) ?_
  refine (unitGate_eq _ _ _ _ _ _).trans ?_
  rw [unitLin_eq dot_S128x1024_S1024x3072_S128x3072_1_0_0_1_n_n rfl]

theorem hz2 : (![0, 0] : Fin 2 → Nat) = fun _ => 0 := funext fun a => by fin_cases a <;> rfl
theorem hz3 : (![0, 0, 0] : Fin 3 → Nat) = fun _ => 0 := funext fun a => by fin_cases a <;> rfl

/-- The output block the body leaves: five steps of the input blocks, with a leading unit axis. -/
theorem body_eq (x0 : Vec Ideal S128x8x64 .bf16) (x1 : Vec Ideal S128x1024 .bf16) (x2 : Vec Ideal S64x3072 .bf16)
    (x3 x4 : Vec Ideal S1024x3072 .bf16) (x5 : Vec Ideal S64x3072 .bf16) (x6 : Vec Ideal S1024x3072 .bf16)
    (x7 x8 : Vec Ideal S1x3072 .f32) :
    out0_9 x0 x1 x2 x3 x4 x5 x6 x7 x8
      = shapeCast S1x128x1024 (gru5 (obsAt x0 0) (obsAt x0 1) (obsAt x0 2) x1 x2 x3 x4 x5 (rowVec x7) x6 (rowVec x8))
          shapeCasts_S128x1024_S1x128x1024 := by
  unfold out0_9
  rw [View.canon_unit_zero hz3]
  simp only [View.ld_unit_zero (S := S1x3072) hz2, View.ld_unit_zero (S := S64x3072) hz2, View.ld_unit_zero (S := S1024x3072) hz2,
    View.ld_unit_zero (S := S128x8x64) hz3, View.ld_unit_zero (S := S128x1024) hz2]
  simp only [pay1_eq, pay2_eq, pay3_eq, pay4_eq, pay5_eq, pay6_eq, pay7_eq, pay8_eq, pay10_eq, pay11_eq, pay12_eq, pay14_eq,
    pay15_eq, pay16_eq, pay17_eq, pay18_eq, pay19_eq, pay20_eq, pay21_eq, pay22_eq, pay23_eq, pay24_eq, pay13_eq]
  rfl

end Cert.KernelIdeal.Hand

end
-- ==== Proof.KerFinal.lean ====
/-
  The kernel's run, read: the result array is five gated recurrent steps of the argument arrays.

  Before the region the host narrows the observations, gathers one embedding row per batch row, transposes the two
  weights, cuts the transposed input weight into its first 64 / last 1024 and its first 1024 / last 64 rows, and
  reshapes the biases to rows. Grid point `t` gets batch rows `128 t … 128 t + 127` of the observations and the
  embeddings and the whole of everything else, and writes back rows `128 t … 128 t + 127` of the result. A step's
  entry depends on one batch row only (`Gru.gru5_rowsAt`), so what point `t` writes is block `t` of the five steps of
  the whole arrays; the 128 blocks cover the result.
-/
import proofs.«157512_j81793357185352_1_alg».proof.Proof.Gen.KernelIdeal.Value
import proofs.«157512_j81793357185352_1_alg».proof.Proof.KerBody
import Idealize.ShloMosaic.Lib.StableHlo.Run
import Idealize.ShloMosaic.Lib.Pipeline.Value

noncomputable section

open scoped BigOperators

namespace Cert.KernelIdeal.Hand

open Cert.KernelIdeal Cert.KernelIdeal.Gen Cert.KernelIdeal.Value
open Idealize.ShloMosaic Idealize.ShloMosaic.TcCoe Idealize.SL.Sem Idealize.ShloMosaic.StableHlo Idealize.ShloMosaic.ValueIdx
open Idealize.ShloMosaic.Pipeline (Dat)
open Cert.Gru Cert.Lib.BiasDot Cert.Lib.Dense Cert.Lib.CatDot Cert.Lib.RowLayers

variable (m : (ℓ : Loc nD τ sig) → Buf (Elt Ideal) ℓ) (ρ : Dev nD → PrngReg)

/-! ## The arrays the region finds, as terms of the arguments -/

/-- The observations. -/
abbrev obsArr (c : Dev nD) : FVec Ideal S16384x8x64 .f32 := m ((c : Thread nD τ).loc main_arg0)
/-- The gathered embedding rows: row `n` is the embedding table's row at the index word of batch row `n`, a negative
    word first raised by the table's height. -/
abbrev embArr (c : Dev nD) : FVec Ideal S16384x1024 .f32 :=
  Host.gather gather_S100x1024_S16384x1_S16384x1024_1_0_n_n_0_1_11024 (m ((c : Thread nD τ).loc main_arg2))
    (broadcastInDim S16384x1 ![0] bcast_S16384_S16384x1_0
      (select (cmpi .slt (m ((c : Thread nD τ).loc main_arg1)) (broadcastInDim S16384 ![] bcast_S_S16384 (constantI S_ 32 0#32)))
        (addi (m ((c : Thread nD τ).loc main_arg1)) (broadcastInDim S16384 ![] bcast_S_S16384 (constantI S_ 32 100#32)))
        (m ((c : Thread nD τ).loc main_arg1))))
/-- The transposed input weight. -/
abbrev wihT (c : Dev nD) : FVec Ideal S1088x3072 .f32 :=
  transpose S1088x3072 [1, 0] (m ((c : Thread nD τ).loc main_arg3)) transposes_S3072x1088_S1088x3072_1_0
/-- The transposed hidden weight. -/
abbrev whhT (c : Dev nD) : FVec Ideal S1024x3072 .f32 :=
  transpose S1024x3072 [1, 0] (m ((c : Thread nD τ).loc main_arg4)) transposes_S3072x1024_S1024x3072_1_0
/-- The input bias. -/
abbrev bihArr (c : Dev nD) : FVec Ideal S3072 .f32 := m ((c : Thread nD τ).loc main_arg5)
/-- The hidden bias. -/
abbrev bhhArr (c : Dev nD) : FVec Ideal S3072 .f32 := m ((c : Thread nD τ).loc main_arg6)

theorem V_v0 (c : Dev nD) : (V m c main_v0 : S16384x8x64.Idx → EReal) = obsArr m c := by
  dsimp only [Gen.V, Gen.hostOps0]; after_results; rfl

theorem V_v8 (c : Dev nD) : (V m c main_v8 : S16384x1024.Idx → EReal) = embArr m c := by
  dsimp only [Gen.V, Gen.hostOps0]; after_results; rfl

theorem V_v11 (c : Dev nD) : (V m c main_v11 : S64x3072.Idx → EReal) = rowsTop (K := 64) (K' := 1024) (wihT m c) := by
  refine Eq.trans ?_ (slice_rowsTop (K := 64) (K' := 1024) (wihT m c) slices_S1088x3072_S64x3072_0_0)
  dsimp only [Gen.V, Gen.hostOps0]; after_results; rfl

theorem V_v13 (c : Dev nD) : (V m c main_v13 : S1024x3072.Idx → EReal) = rowsBot (K := 64) (K' := 1024) (wihT m c) := by
  refine Eq.trans ?_ (slice_rowsBot (K := 64) (K' := 1024) (wihT m c) slices_S1088x3072_S1024x3072_64_0)
  dsimp only [Gen.V, Gen.hostOps0]; after_results; rfl

theorem V_v15 (c : Dev nD) : (V m c main_v15 : S1024x3072.Idx → EReal) = rowsTop (K := 1024) (K' := 64) (wihT m c) := by
  refine Eq.trans ?_ (slice_rowsTop (K := 1024) (K' := 64) (wihT m c) slices_S1088x3072_S1024x3072_0_0)
  dsimp only [Gen.V, Gen.hostOps0]; after_results; rfl

theorem V_v17 (c : Dev nD) : (V m c main_v17 : S64x3072.Idx → EReal) = rowsBot (K := 1024) (K' := 64) (wihT m c) := by
  refine Eq.trans ?_ (slice_rowsBot (K := 1024) (K' := 64) (wihT m c) slices_S1088x3072_S64x3072_1024_0)
  dsimp only [Gen.V, Gen.hostOps0]; after_results; rfl

theorem V_v19 (c : Dev nD) : (V m c main_v19 : S1024x3072.Idx → EReal) = whhT m c := by
  dsimp only [Gen.V, Gen.hostOps0]; after_results; rfl

theorem V_v20 (c : Dev nD) : rowVec (V m c main_v20 : S1x3072.Idx → EReal) = bihArr m c := by
  refine Eq.trans ?_ (rowVec_reshape (bihArr m c) shapeCasts_S3072_S1x3072)
  congr 1

theorem V_v21 (c : Dev nD) : rowVec (V m c main_v21 : S1x3072.Idx → EReal) = bhhArr m c := by
  refine Eq.trans ?_ (rowVec_reshape (bhhArr m c) shapeCasts_S3072_S1x3072)
  congr 1

/-! ## The windows' blocks -/

/-- The index maps, decided over the 128 grid points: the two row-blocked inputs and the output move with the point
    along the batch axis, everything else stays at block zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 3) = 0 ∧ win0_9.index t (1 : Fin 3) = t.val ∧ win0_9.index t (2 : Fin 3) = 0 :=
  (by decide +kernel : ∀ t : Fin grid0.N, _)

/-- Batch row `p` of grid point `t`'s block. -/
def blockRow (t : Fin cfg0.N) (p : Fin 128) : Fin 16384 :=
  ⟨128 * t.val + p.val, by have ht : t.val < 128 := lt_of_lt_of_eq t.isLt N_0; have := p.isLt; omega⟩

theorem iblk0_eq (c : Dev nD) (t : Fin cfg0.N) :
    (iblk m c 0 t : S128x8x64.Idx → EReal) = rowsAt3 (blockRow t) (obsArr m c) := by
  obtain ⟨e0, e1, e2, -⟩ := idx_facts t
  rw [← V_v0]
  funext y
  unfold iblk
  rw [View.read_apply]
  show V m c main_v0 _ = V m c main_v0 (ix3 (blockRow t (y 0)) (y 1) (y 2))
  congr 1
  funext a
  apply Fin.ext
  match a with
  | ⟨0, _⟩ => show win0_0.index t 0 * 128 + 1 * (y 0).val = 128 * t.val + (y 0).val; rw [e0]; omega
  | ⟨1, _⟩ => show win0_0.index t 1 * 8 + 1 * (y 1).val = (y 1).val; rw [e1]; omega
  | ⟨2, _⟩ => show win0_0.index t 2 * 64 + 1 * (y 2).val = (y 2).val; rw [e2]; omega

theorem iblk1_eq (c : Dev nD) (t : Fin cfg0.N) :
    (iblk m c 1 t : S128x1024.Idx → EReal) = rowsAt (blockRow t) (embArr m c) := by
  obtain ⟨-, -, -, e0, e1, -⟩ := idx_facts t
  rw [← V_v8]
  funext y
  unfold iblk
  rw [View.read_apply]
  show V m c main_v8 _ = V m c main_v8 (ix2 (blockRow t (y 0)) (y 1))
  congr 1
  funext a
  apply Fin.ext
  match a with
  | ⟨0, _⟩ => show win0_1.index t 0 * 128 + 1 * (y 0).val = 128 * t.val + (y 0).val; rw [e0]; omega
  | ⟨1, _⟩ => show win0_1.index t 1 * 1024 + 1 * (y 1).val = (y 1).val; rw [e1]; omega

theorem iblk2_eq (c : Dev nD) (t : Fin cfg0.N) : (iblk m c 2 t : S64x3072.Idx → EReal) = V m c main_v11 := by
  obtain ⟨-, -, -, -, -, e0, e1, -⟩ := idx_facts t
  funext y
  unfold iblk
  rw [View.read_apply]
  show V m c main_v11 _ = V m c main_v11 y
  congr 1
  funext a
  apply Fin.ext
  match a with
  | ⟨0, _⟩ => show win0_2.index t 0 * 64 + 1 * (y 0).val = (y 0).val; rw [e0]; omega
  | ⟨1, _⟩ => show win0_2.index t 1 * 3072 + 1 * (y 1).val = (y 1).val; rw [e1]; omega

theorem iblk3_eq (c : Dev nD) (t : Fin cfg0.N) : (iblk m c 3 t : S1024x3072.Idx → EReal) = V m c main_v13 := by
  obtain ⟨-, -, -, -, -, -, -, e0, e1, -⟩ := idx_facts t
  funext y
  unfold iblk
  rw [View.read_apply]
  show V m c main_v13 _ = V m c main_v13 y
  congr 1
  funext a
  apply Fin.ext
  match a with
  | ⟨0, _⟩ => show win0_3.index t 0 * 1024 + 1 * (y 0).val = (y 0).val; rw [e0]; omega
  | ⟨1, _⟩ => show win0_3.index t 1 * 3072 + 1 * (y 1).val = (y 1).val; rw [e1]; omega

theorem iblk4_eq (c : Dev nD) (t : Fin cfg0.N) : (iblk m c 4 t : S1024x3072.Idx → EReal) = V m c main_v15 := by
  obtain ⟨-, -, -, -, -, -, -, -, -, e0, e1, -⟩ := idx_facts t
  funext y
  unfold iblk
  rw [View.read_apply]
  show V m c main_v15 _ = V m c main_v15 y
  congr 1
  funext a
  apply Fin.ext
  match a with
  | ⟨0, _⟩ => show win0_4.index t 0 * 1024 + 1 * (y 0).val = (y 0).val; rw [e0]; omega
  | ⟨1, _⟩ => show win0_4.index t 1 * 3072 + 1 * (y 1).val = (y 1).val; rw [e1]; omega

theorem iblk5_eq (c : Dev nD) (t : Fin cfg0.N) : (iblk m c 5 t : S64x3072.Idx → EReal) = V m c main_v17 := by
  obtain ⟨-, -, -, -, -, -, -, -, -, -, -, e0, e1, -⟩ := idx_facts t
  funext y
  unfold iblk
  rw [View.read_apply]
  show V m c main_v17 _ = V m c main_v17 y
  congr 1
  funext a
  apply Fin.ext
  match a with
  | ⟨0, _⟩ => show win0_5.index t 0 * 64 + 1 * (y 0).val = (y 0).val; rw [e0]; omega
  | ⟨1, _⟩ => show win0_5.index t 1 * 3072 + 1 * (y 1).val = (y 1).val; rw [e1]; omega

theorem iblk6_eq (c : Dev nD) (t : Fin cfg0.N) : (iblk m c 6 t : S1024x3072.Idx → EReal) = V m c main_v19 := by
  obtain ⟨-, -, -, -, -, -, -, -, -, -, -, -, -, e0, e1, -⟩ := idx_facts t
  funext y
  unfold iblk
  rw [View.read_apply]
  show V m c main_v19 _ = V m c main_v19 y
  congr 1
  funext a
  apply Fin.ext
  match a with
  | ⟨0, _⟩ => show win0_6.index t 0 * 1024 + 1 * (y 0).val = (y 0).val; rw [e0]; omega
  | ⟨1, _⟩ => show win0_6.index t 1 * 3072 + 1 * (y 1).val = (y 1).val; rw [e1]; omega

theorem iblk7_eq (c : Dev nD) (t : Fin cfg0.N) : (iblk m c 7 t : S1x3072.Idx → EReal) = V m c main_v20 := by
  obtain ⟨-, -, -, -, -, -, -, -, -, -, -, -, -, -, -, e0, e1, -⟩ := idx_facts t
  funext y
  unfold iblk
  rw [View.read_apply]
  show V m c main_v20 _ = V m c main_v20 y
  congr 1
  funext a
  apply Fin.ext
  match a with
  | ⟨0, _⟩ => show win0_7.index t 0 * 1 + 1 * (y 0).val = (y 0).val; rw [e0]; omega
  | ⟨1, _⟩ => show win0_7.index t 1 * 3072 + 1 * (y 1).val = (y 1).val; rw [e1]; omega

theorem iblk8_eq (c : Dev nD) (t : Fin cfg0.N) : (iblk m c 8 t : S1x3072.Idx → EReal) = V m c main_v21 := by
  obtain ⟨-, -, -, -, -, -, -, -, -, -, -, -, -, -, -, -, -, e0, e1, -⟩ := idx_facts t
  funext y
  unfold iblk
  rw [View.read_apply]
  show V m c main_v21 _ = V m c main_v21 y
  congr 1
  funext a
  apply Fin.ext
  match a with
  | ⟨0, _⟩ => show win0_8.index t 0 * 1 + 1 * (y 0).val = (y 0).val; rw [e0]; omega
  | ⟨1, _⟩ => show win0_8.index t 1 * 3072 + 1 * (y 1).val = (y 1).val; rw [e1]; omega

/-! ## The result -/

/-- The hidden state after the five steps, over the whole batch. -/
def state5 (c : Dev nD) : Mat 16384 1024 :=
  gru5 (obsAt (obsArr m c) 0) (obsAt (obsArr m c) 1) (obsAt (obsArr m c) 2) (embArr m c)
    (rowsTop (K := 64) (K' := 1024) (wihT m c)) (rowsBot (K := 64) (K' := 1024) (wihT m c))
    (rowsTop (K := 1024) (K' := 64) (wihT m c)) (rowsBot (K := 1024) (K' := 64) (wihT m c))
    (bihArr m c) (whhT m c) (bhhArr m c)

/-- What the result array ends holding: the state after the five steps, with a leading unit axis. -/
def result (c : Dev nD) : S1x16384x1024.Idx → EReal := fun i => state5 m c (ix2 (i 1) (i 2))

/-- The block point `t` computes is rows `128 t …` of the five steps of the whole arrays. -/
theorem block_eq (c : Dev nD) (t : Fin cfg0.N) :
    out0_9 (iblk m c 0 t) (iblk m c 1 t) (iblk m c 2 t) (iblk m c 3 t) (iblk m c 4 t) (iblk m c 5 t) (iblk m c 6 t) (iblk m c 7 t) (iblk m c 8 t)
      = shapeCast S1x128x1024 (rowsAt (blockRow t) (state5 m c)) shapeCasts_S128x1024_S1x128x1024 := by
  refine (body_eq (iblk m c 0 t) (iblk m c 1 t) (iblk m c 2 t) (iblk m c 3 t) (iblk m c 4 t) (iblk m c 5 t) (iblk m c 6 t)
    (iblk m c 7 t) (iblk m c 8 t)).trans ?_
  refine congrArg (fun z => shapeCast S1x128x1024 z shapeCasts_S128x1024_S1x128x1024) ?_
  have h0 := iblk0_eq m c t
  have h1 := iblk1_eq m c t
  have h2 := (iblk2_eq m c t).trans (V_v11 m c)
  have h3 := (iblk3_eq m c t).trans (V_v13 m c)
  have h4 := (iblk4_eq m c t).trans (V_v15 m c)
  have h5 := (iblk5_eq m c t).trans (V_v17 m c)
  have h6 := (iblk6_eq m c t).trans (V_v19 m c)
  have h7 := (congrArg rowVec (iblk7_eq m c t)).trans (V_v20 m c)
  have h8 := (congrArg rowVec (iblk8_eq m c t)).trans (V_v21 m c)
  rw [h0, h1, h2, h3, h4, h5, h6, h7, h8, obsAt_rowsAt3, obsAt_rowsAt3, obsAt_rowsAt3]
  exact gru5_rowsAt (blockRow t) _ _ _ _ _ _ _ _ _ _ _

/-- An index of the result array is in point `t`'s block iff each coordinate is in the block's range on its axis. -/
theorem mem_blk9 (t : Fin cfg0.N) (i : S1x16384x1024.Idx) :
    i ∈ ((cfg0.win 9).blk t).view.set ↔ ∀ a : Fin 3, win0_9.index t a * S1x128x1024.size a ≤ (i a).val
      ∧ (i a).val < win0_9.index t a * S1x128x1024.size a + S1x128x1024.size a := by
  show i ∈ ((View.whole main_v22).slice (win0_9.rect t)).set ↔ _
  rw [View.set_slice_whole, Rect.mem_set_unit]
  exact Iff.rfl

/-- What point `t` writes back is block `t` of the result. -/
theorem flushed_eq (c : Dev nD) (t : Fin cfg0.N) :
    (dats m 0 c).flushed 9 t = ((cfg0.win 9).blk t).view.read (Elt Ideal) (result m c) := by
  rw [Value.flushed9, block_eq]
  obtain ⟨-, -, -, -, -, -, -, -, -, -, -, -, -, -, -, -, -, -, -, e0, e1, e2⟩ := idx_facts t
  funext j
  show shapeCast S1x128x1024 (rowsAt (blockRow t) (state5 m c)) shapeCasts_S128x1024_S1x128x1024 j
    = result m c (((cfg0.win 9).blk t).view.emb j)
  obtain ⟨u, p, q, rfl⟩ : ∃ (u : Fin 1) (p : Fin 128) (q : Fin 1024), j = ix3 u p q := ⟨j 0, j 1, j 2, eq_ix3 j⟩
  rw [shapeCast_ab_1ab_apply]
  show state5 m c (ix2 (blockRow t p) q) = state5 m c (ix2 ((((cfg0.win 9).blk t).view.emb (ix3 u p q)) 1) ((((cfg0.win 9).blk t).view.emb (ix3 u p q)) 2))
  refine congrArg (state5 m c) ?_
  funext a
  apply Fin.ext
  match a with
  | ⟨0, _⟩ => show 128 * t.val + p.val = win0_9.index t 1 * 128 + 1 * p.val; rw [e1]; omega
  | ⟨1, _⟩ => show q.val = win0_9.index t 2 * 1024 + 1 * q.val; rw [e2]; omega

/-- The 128 blocks cover the result array: entry `(0, n, j)` is in the block of point `n / 128`. -/
theorem cover (i : S1x16384x1024.Idx) :
    ∃ t : Fin cfg0.N, (cfg0.win 9).flush t = true ∧ i ∈ ((cfg0.win 9).blk t).view.set := by
  have h0 : (i 0).val < 1 := (i 0).isLt
  have h1 : (i 1).val < 16384 := (i 1).isLt
  have h2 : (i 2).val < 1024 := (i 2).isLt
  have hN : cfg0.N = 128 := N_0
  have hlt : (i 1).val / 128 < cfg0.N := by rw [hN]; omega
  obtain ⟨-, -, -, -, -, -, -, -, -, -, -, -, -, -, -, -, -, -, -, e0, e1, e2⟩ := idx_facts ⟨(i 1).val / 128, hlt⟩
  refine ⟨⟨(i 1).val / 128, hlt⟩, flush0_9 _, ?_⟩
  rw [mem_blk9]
  intro a
  match a with
  | ⟨0, _⟩ =>
    show win0_9.index ⟨(i 1).val / 128, hlt⟩ 0 * 1 ≤ (i 0).val ∧ (i 0).val < win0_9.index ⟨(i 1).val / 128, hlt⟩ 0 * 1 + 1
    rw [e0]; omega
  | ⟨1, _⟩ =>
    show win0_9.index ⟨(i 1).val / 128, hlt⟩ 1 * 128 ≤ (i 1).val ∧ (i 1).val < win0_9.index ⟨(i 1).val / 128, hlt⟩ 1 * 128 + 128
    rw [e1]
    show (i 1).val / 128 * 128 ≤ (i 1).val ∧ (i 1).val < (i 1).val / 128 * 128 + 128
    omega
  | ⟨2, _⟩ =>
    show win0_9.index ⟨(i 1).val / 128, hlt⟩ 2 * 1024 ≤ (i 2).val ∧ (i 2).val < win0_9.index ⟨(i 1).val / 128, hlt⟩ 2 * 1024 + 1024
    rw [e2]; omega

/-- So the result array ends holding the five steps of the argument arrays. -/
theorem final (c : Dev nD) : (dats m 0 c).arrAt 9 cfg0.N = result m c :=
  (dats m 0 c).arrAt_eq_of_cover 9 (result m c) (fun t _ => flushed_eq m c t) (cover)

/-- The kernel's run, read: the result array at the five steps of the arguments, the arguments unchanged. -/
theorem run : θ_run defs (onTc (τ := τ) (main (F := Ideal))) ⟨m, fun _ => 0, ρ⟩ fun r => ∀ c : Dev nD,
      r.2.mem ((c : Thread nD τ).loc main_v22) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Hand

end
-- ==== Proof.lean ====
/-
  A Pallas kernel that steps a gated recurrent unit five times over 16384 independent batch rows, against the same
  recurrence written in jnp over the whole batch.

  Both programs gather one embedding row (1024 numbers) per batch row and start every row's hidden state (1024
  numbers) at zero. Steps one to three take the observation of time step 0, 1, 2 (64 numbers) followed by the
  embedding as input; step four takes the state after the FIRST step followed by the observation of time step 1; step
  five the state after step four followed by the observation of time step 2. A step forms `gi = x · W_ihᵀ + b_ih` and
  `gh = h · W_hhᵀ + b_hh` (3072 numbers each), and with `r = σ(giᵣ + ghᵣ)`, `z = σ(gi_z + gh_z)`,
  `n = tanh(giₙ + r · ghₙ)` leaves `(1 − z) · n + z · h`.

  The two programs differ in three ways, none of which matters on the extended reals. The reference concatenates the
  two input blocks and multiplies by the whole transposed weight, the kernel multiplies each block by its own rows of
  the transposed weight and adds: the sum over the 1088 input columns splits at the seam, by associativity and
  commutativity of addition alone, so no finiteness of the inputs is used. The kernel narrows its matrix operands to
  a shorter float format, which is the identity here. And the kernel's logistic function is one operation where the
  reference writes `1 / (1 + exp (−x))`: one function. The kernel works on 128 batch rows per grid point; every entry
  of a step depends on one batch row only, so the blocks are the rows of the whole-batch recurrence, and the 128
  blocks cover the result.

  The frames of the two kernel programs are the generated ones, the reference's frame is its generated run, and the
  idealization rewrote nothing.
-/
import proofs.«157512_j81793357185352_1_alg».proof.Defs
import proofs.«157512_j81793357185352_1_alg».proof.Proof.Gen.Kernel
import proofs.«157512_j81793357185352_1_alg».proof.Proof.Gen.Kernel.Skeleton
import proofs.«157512_j81793357185352_1_alg».proof.Proof.Gen.Kernel.Launch
import proofs.«157512_j81793357185352_1_alg».proof.Proof.Gen.Kernel.Points
import proofs.«157512_j81793357185352_1_alg».proof.Proof.Gen.Kernel.Frame
import proofs.«157512_j81793357185352_1_alg».proof.Proof.Gen.KernelIdeal
import proofs.«157512_j81793357185352_1_alg».proof.Proof.Gen.KernelIdeal.Skeleton
import proofs.«157512_j81793357185352_1_alg».proof.Proof.Gen.KernelIdeal.Launch
import proofs.«157512_j81793357185352_1_alg».proof.Proof.Gen.KernelIdeal.Points
import proofs.«157512_j81793357185352_1_alg».proof.Proof.Gen.KernelIdeal.Frame
import proofs.«157512_j81793357185352_1_alg».proof.Proof.Gen.ReferenceIdeal
import proofs.«157512_j81793357185352_1_alg».proof.Proof.Gen.Pre_finite_inputs
import proofs.«157512_j81793357185352_1_alg».proof.Proof.Gen.KernelIdeal.Value
import proofs.«157512_j81793357185352_1_alg».proof.Proof.Gen.ReferenceIdeal.Run
import proofs.«157512_j81793357185352_1_alg».proof.Proof.RefSide
import proofs.«157512_j81793357185352_1_alg».proof.Proof.KerFinal
import Idealize.ShloMosaic.Adequacy
import Idealize.ShloMosaic.Init

noncomputable section

namespace Cert.Proof

open Idealize.ShloMosaic Idealize.ShloMosaic.TcCoe Idealize.SL.Sem Idealize.ShloMosaic.StableHlo Idealize.ShloMosaic.ValueIdx
open Cert.Gru Cert.Lib.CatDot

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The reference's five steps of its arrays are the kernel's five steps of arrays that agree with them. -/
theorem states_agree (V0 : Valuation Cert.ReferenceIdeal.τ Cert.ReferenceIdeal.sig (Elt Ideal))
    (m : (ℓ : Loc Cert.KernelIdeal.nD Cert.KernelIdeal.τ Cert.KernelIdeal.sig) → Buf (Elt Ideal) ℓ) (c : Dev Cert.KernelIdeal.nD)
    (h0 : Cert.ReferenceIdeal.Hand.obs V0 = Cert.KernelIdeal.Hand.obsArr m c)
    (hE : Cert.ReferenceIdeal.Value.res_main_v6 V0 = Cert.KernelIdeal.Hand.embArr m c)
    (h3 : Cert.ReferenceIdeal.Hand.wihT V0 = Cert.KernelIdeal.Hand.wihT m c)
    (h4 : Cert.ReferenceIdeal.Hand.whhT V0 = Cert.KernelIdeal.Hand.whhT m c)
    (h5 : Cert.ReferenceIdeal.Hand.bih V0 = Cert.KernelIdeal.Hand.bihArr m c)
    (h6 : Cert.ReferenceIdeal.Hand.bhh V0 = Cert.KernelIdeal.Hand.bhhArr m c) :
    (fun i : Cert.ReferenceIdeal.S1x16384x1024.Idx =>
      gru5 (obsAt (Cert.ReferenceIdeal.Hand.obs V0) 0) (obsAt (Cert.ReferenceIdeal.Hand.obs V0) 1) (obsAt (Cert.ReferenceIdeal.Hand.obs V0) 2)
        (Cert.ReferenceIdeal.Value.res_main_v6 V0)
        (rowsTop (K := 64) (K' := 1024) (Cert.ReferenceIdeal.Hand.wihT V0)) (rowsBot (K := 64) (K' := 1024) (Cert.ReferenceIdeal.Hand.wihT V0))
        (rowsTop (K := 1024) (K' := 64) (Cert.ReferenceIdeal.Hand.wihT V0)) (rowsBot (K := 1024) (K' := 64) (Cert.ReferenceIdeal.Hand.wihT V0))
        (Cert.ReferenceIdeal.Hand.bih V0) (Cert.ReferenceIdeal.Hand.whhT V0) (Cert.ReferenceIdeal.Hand.bhh V0) (ix2 (i 1) (i 2)))
      = Cert.KernelIdeal.Hand.result m c := by
  rw [h0, hE, h3, h4, h5, h6]
  rfl

/-- From memories that agree on the arguments both programs end with the five steps of the arguments in their result
    arrays. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Value.val5_main_v213 _).symm.trans (Cert.ReferenceIdeal.Hand.result_eq _)).trans ?_
  obtain ⟨a0, a1, a2, a3, a4, a5, a6⟩ := hagree c
  refine states_agree _ m c a0 ?_
    (congrArg (fun x => transpose Cert.KernelIdeal.S1088x3072 [1, 0] x Cert.KernelIdeal.Facts₀.transposes_S3072x1088_S1088x3072_1_0) a3)
    (congrArg (fun x => transpose Cert.KernelIdeal.S1024x3072 [1, 0] x Cert.KernelIdeal.Facts₀.transposes_S3072x1024_S1024x3072_1_0) a4)
    a5 a6
  unfold Cert.ReferenceIdeal.Value.res_main_v6 Cert.KernelIdeal.Hand.embArr
  rw [← a1, ← a2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
